-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S50000x256 : Shape := ⟨2, ![50000, 256]⟩
abbrev S4000000 : Shape := ⟨1, ![4000000]⟩
abbrev S1000000 : Shape := ⟨1, ![1000000]⟩
abbrev S256x64 : Shape := ⟨2, ![256, 64]⟩
abbrev S64 : Shape := ⟨1, ![64]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S4000000 : S_.BroadcastsInDim S4000000 (![] : Fin 0 → Fin S4000000.rank)
  reducesTo_S4000000_S_d0 : S4000000.ReducesTo [0] S_
  bcast_S_S1000000 : S_.BroadcastsInDim S1000000 (![] : Fin 0 → Fin S1000000.rank)
  reducesTo_S1000000_S_d0 : S1000000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg11 : FVec F S256x64 .f32) (main_arg12 : FVec F S256x64 .f32) (main_arg13 : FVec F S64 .f32) (main_v33 : IVec S_ 1) : IVec S_ 1 :=
  let main_v34 : FVec F S256x64 .f32 := Host.absf main_arg11
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg12
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg8 : FVec F S256x64 .f32) (main_arg9 : FVec F S256x64 .f32) (main_arg10 : FVec F S64 .f32) (main_arg11 : FVec F S256x64 .f32) (main_arg12 : FVec F S256x64 .f32) (main_arg13 : FVec F S64 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S256x64 .f32 := Host.absf main_arg8
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg9
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_v33

def fn {F : FTy → Type} [FloatOps F] (main_arg0 : FVec F S200000x256 .f32) (main_arg1 : FVec F S50000x256 .f32) (main_arg2 : IVec S4000000 32) (main_arg3 : IVec S4000000 32) (main_arg4 : FVec F S4000000 .f32) (main_arg5 : IVec S1000000 32) (main_arg6 : IVec S1000000 32) (main_arg7 : FVec F S1000000 .f32) (main_arg8 : FVec F S256x64 .f32) (main_arg9 : FVec F S256x64 .f32) (main_arg10 : FVec F S64 .f32) (main_arg11 : FVec F S256x64 .f32) (main_arg12 : FVec F S256x64 .f32) (main_arg13 : FVec F S64 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S4000000 .f32 := Host.absf main_arg4
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S1000000 .f32 := Host.absf main_arg7
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg8 main_arg9 main_arg10 main_arg11 main_arg12 main_arg13 main_v13 main_v16
-- ==== Kernel.lean ====
abbrev S200000x256 : Shape := ⟨2, ![200000, 256]⟩
abbrev S50000x256 : Shape := ⟨2, ![50000, 256]⟩
abbrev S4000000 : Shape := ⟨1, ![4000000]⟩
abbrev S1000000 : Shape := ⟨1, ![1000000]⟩
abbrev S256x64 : Shape := ⟨2, ![256, 64]⟩
abbrev S64 : Shape := ⟨1, ![64]⟩
abbrev S200000x64 : Shape := ⟨2, ![200000, 64]⟩
abbrev S50000x64 : Shape := ⟨2, ![50000, 64]⟩
abbrev S_ : Shape := ⟨0, ![]⟩
abbrev S4000000x1 : Shape := ⟨2, ![4000000, 1]⟩
abbrev S4000000x64 : Shape := ⟨2, ![4000000, 64]⟩
abbrev S200000 : Shape := ⟨1, ![200000]⟩
abbrev S200000x1 : Shape := ⟨2, ![200000, 1]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩
abbrev S1x64 : Shape := ⟨2, ![1, 64]⟩
abbrev S4000x256 : Shape := ⟨2, ![4000, 256]⟩
abbrev S4000x64 : Shape := ⟨2, ![4000, 64]⟩
abbrev S5000x256 : Shape := ⟨2, ![5000, 256]⟩
abbrev S5000x64 : Shape := ⟨2, ![5000, 64]⟩

abbrev nBuf : Space → Nat
  | .hbm => 107
  | .vmem => 16
  | .smem => 0
  | _ => 0

abbrev bufTy : (tb : Table) → Fin (tcTables nBuf tb) → BufTy
  | .hbm, ⟨0, _⟩ => ⟨S200000x256, .f32⟩
  | .hbm, ⟨1, _⟩ => ⟨S50000x256, .f32⟩
  | .hbm, ⟨2, _⟩ => ⟨S4000000, .i32⟩
  | .hbm, ⟨3, _⟩ => ⟨S4000000, .i32⟩
  | .hbm, ⟨4, _⟩ => ⟨S4000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S256x64, .f32⟩
  | .hbm, ⟨9, _⟩ => ⟨S256x64, .f32⟩
  | .hbm, ⟨10, _⟩ => ⟨S64, .f32⟩
  | .hbm, ⟨11, _⟩ => ⟨S256x64, .f32⟩
  | .hbm, ⟨12, _⟩ => ⟨S256x64, .f32⟩
  | .hbm, ⟨13, _⟩ => ⟨S64, .f32⟩
  | .hbm, ⟨14, _⟩ => ⟨S200000x64, .bf16⟩
  | .hbm, ⟨15, _⟩ => ⟨S200000x64, .f32⟩
  | .hbm, ⟨16, _⟩ => ⟨S200000x64, .bf16⟩
  | .hbm, ⟨17, _⟩ => ⟨S50000x64, .f32⟩
  | .hbm, ⟨18, _⟩ => ⟨S_, .i32⟩
  | .hbm, ⟨19, _⟩ => ⟨S4000000, .i32⟩
  | .hbm, ⟨20, _⟩ => ⟨S4000000, .i1⟩
  | .hbm, ⟨21, _⟩ => ⟨S_, .i32⟩
  | .hbm, ⟨22, _⟩ => ⟨S4000000, .i32⟩
  | .hbm, ⟨23, _⟩ => ⟨S4000000, .i32⟩
  | .hbm, ⟨24, _⟩ => ⟨S4000000, .i32⟩
  | .hbm, ⟨25, _⟩ => ⟨S4000000x1, .i32⟩
  | .hbm, ⟨26, _⟩ => ⟨S4000000x64, .bf16⟩
  | .hbm, ⟨27, _⟩ => ⟨S4000000x64, .f32⟩
  | .hbm, ⟨28, _⟩ => ⟨S4000000x1, .f32⟩
  | .hbm, ⟨29, _⟩ => ⟨S4000000x64, .f32⟩
  | .hbm, ⟨30, _⟩ => ⟨S4000000x64, .f32⟩
  | .hbm, ⟨31, _⟩ => ⟨S_, .f32⟩
  | .hbm, ⟨32, _⟩ => ⟨S200000x64, .f32⟩
  | .hbm, ⟨33, _⟩ => ⟨S4000000x1, .i32⟩
  | .hbm, ⟨34, _⟩ => ⟨S200000x64, .f32⟩
  | .hbm, ⟨35, _⟩ => ⟨S_, .f32⟩
  | .hbm, ⟨36, _⟩ => ⟨S4000000, .f32⟩
  | .hbm, ⟨37, _⟩ => ⟨S_, .f32⟩
  | .hbm, ⟨38, _⟩ => ⟨S200000, .f32⟩
  | .hbm, ⟨39, _⟩ => ⟨S4000000x1, .i32⟩
  | .hbm, ⟨40, _⟩ => ⟨S200000, .f32⟩
  | .hbm, ⟨41, _⟩ => ⟨S200000x1, .f32⟩
  | .hbm, ⟨42, _⟩ => ⟨S_, .f32⟩
  | .hbm, ⟨43, _⟩ => ⟨S200000x1, .f32⟩
  | .hbm, ⟨44, _⟩ => ⟨S200000x1, .i1⟩
  | .hbm, ⟨45, _⟩ => ⟨S_, .f32⟩
  | .hbm, ⟨46, _⟩ => ⟨S200000, .f32⟩
  | .hbm, ⟨47, _⟩ => ⟨S200000, .f32⟩
  | .hbm, ⟨48, _⟩ => ⟨S200000x1, .f32⟩
  | .hbm, ⟨49, _⟩ => ⟨S200000x64, .f32⟩
  | .hbm, ⟨50, _⟩ => ⟨S200000x64, .f32⟩
  | .hbm, ⟨51, _⟩ => ⟨S_, .f32⟩
  | .hbm, ⟨52, _⟩ => ⟨S_, .f32⟩
  | .hbm, ⟨53, _⟩ => ⟨S200000x64, .i1⟩
  | .hbm, ⟨54, _⟩ => ⟨S200000x64, .f32⟩
  | .hbm, ⟨55, _⟩ => ⟨S200000x64, .f32⟩
  | .hbm, ⟨56, _⟩ => ⟨S_, .i32⟩
  | .hbm, ⟨57, _⟩ => ⟨S1000000, .i32⟩
  | .hbm, ⟨58, _⟩ => ⟨S1000000, .i1⟩
  | .hbm, ⟨59, _⟩ => ⟨S_, .i32⟩
  | .hbm, ⟨60, _⟩ => ⟨S1000000, .i32⟩
  | .hbm, ⟨61, _⟩ => ⟨S1000000, .i32⟩
  | .hbm, ⟨62, _⟩ => ⟨S1000000, .i32⟩
  | .hbm, ⟨63, _⟩ => ⟨S1000000x1, .i32⟩
  | .hbm, ⟨64, _⟩ => ⟨S1000000x64, .bf16⟩
  | .hbm, ⟨65, _⟩ => ⟨S1000000x64, .f32⟩
  | .hbm, ⟨66, _⟩ => ⟨S1000000x1, .f32⟩
  | .hbm, ⟨67, _⟩ => ⟨S1000000x64, .f32⟩
  | .hbm, ⟨68, _⟩ => ⟨S1000000x64, .f32⟩
  | .hbm, ⟨69, _⟩ => ⟨S_, .f32⟩
  | .hbm, ⟨70, _⟩ => ⟨S50000x64, .f32⟩
  | .hbm, ⟨71, _⟩ => ⟨S1000000x1, .i32⟩
  | .hbm, ⟨72, _⟩ => ⟨S50000x64, .f32⟩
  | .hbm, ⟨73, _⟩ => ⟨S_, .f32⟩
  | .hbm, ⟨74, _⟩ => ⟨S1000000, .f32⟩
  | .hbm, ⟨75, _⟩ => ⟨S_, .f32⟩
  | .hbm, ⟨76, _⟩ => ⟨S50000, .f32⟩
  | .hbm, ⟨77, _⟩ => ⟨S1000000x1, .i32⟩
  | .hbm, ⟨78, _⟩ => ⟨S50000, .f32⟩
  | .hbm, ⟨79, _⟩ => ⟨S50000x1, .f32⟩
  | .hbm, ⟨80, _⟩ => ⟨S_, .f32⟩
  | .hbm, ⟨81, _⟩ => ⟨S50000x1, .f32⟩
  | .hbm, ⟨82, _⟩ => ⟨S50000x1, .i1⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S_, .f32⟩
  | .hbm, ⟨91, _⟩ => ⟨S50000x64, .i1⟩
  | .hbm, ⟨92, _⟩ => ⟨S50000x64, .f32⟩
  | .hbm, ⟨93, _⟩ => ⟨S50000x64, .f32⟩
  | .hbm, ⟨94, _⟩ => ⟨S200000x64, .f32⟩
  | .hbm, ⟨95, _⟩ => ⟨S1x64, .f32⟩
  | .hbm, ⟨96, _⟩ => ⟨S200000x64, .f32⟩
  | .hbm, ⟨97, _⟩ => ⟨S200000x64, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | .hbm, ⟨104, _⟩ => ⟨S_, .f32⟩
  | .hbm, ⟨105, _⟩ => ⟨S50000x64, .f32⟩
  | .hbm, ⟨106, _⟩ => ⟨S50000x64, .f32⟩
  | .local _ .vmem, ⟨0, _⟩ => ⟨S4000x256, .f32⟩
  | .local _ .vmem, ⟨1, _⟩ => ⟨S4000x256, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x64, .bf16⟩
  | .local _ .vmem, ⟨10, _⟩ => ⟨S4000x64, .bf16⟩
  | .local _ .vmem, ⟨11, _⟩ => ⟨S5000x256, .f32⟩
  | .local _ .vmem, ⟨12, _⟩ => ⟨S5000x256, .f32⟩
  | .local _ .vmem, ⟨13, _⟩ => ⟨S256x64, .f32⟩
  | .local _ .vmem, ⟨14, _⟩ => ⟨S5000x64, .f32⟩
  | .local _ .vmem, ⟨15, _⟩ => ⟨S5000x64, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0_0 : Ref sig .tc := ⟨.hbm, 14, rfl⟩
abbrev main_call0_v0_1 : Ref sig .tc := ⟨.hbm, 15, rfl⟩
abbrev main_call0_v0_2 : Ref sig .tc := ⟨.hbm, 16, rfl⟩
abbrev main_call0_v1 : Ref sig .tc := ⟨.hbm, 17, rfl⟩
abbrev main_call0_c : Ref sig .tc := ⟨.hbm, 18, rfl⟩
abbrev main_call0_v2 : Ref sig .tc := ⟨.hbm, 19, rfl⟩
abbrev main_call0_v3 : Ref sig .tc := ⟨.hbm, 20, rfl⟩
abbrev main_call0_c_0 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_cst_1 : Ref sig .tc := ⟨.hbm, 35, rfl⟩
abbrev main_call0_v16 : Ref sig .tc := ⟨.hbm, 36, rfl⟩
abbrev main_call0_cst_2 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_cst_3 : Ref sig .tc := ⟨.hbm, 42, rfl⟩
abbrev main_call0_v21 : Ref sig .tc := ⟨.hbm, 43, rfl⟩
abbrev main_call0_v22 : Ref sig .tc := ⟨.hbm, 44, rfl⟩
abbrev main_call0_cst_4 : Ref sig .tc := ⟨.hbm, 45, rfl⟩
abbrev main_call0_v23 : Ref sig .tc := ⟨.hbm, 46, rfl⟩
abbrev main_call0_v24 : Ref sig .tc := ⟨.hbm, 47, rfl⟩
abbrev main_call0_v25 : Ref sig .tc := ⟨.hbm, 48, rfl⟩
abbrev main_call0_v26 : Ref sig .tc := ⟨.hbm, 49, rfl⟩
abbrev main_call0_v27 : Ref sig .tc := ⟨.hbm, 50, rfl⟩
abbrev main_call0_cst_5 : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_v28 : Ref sig .tc := ⟨.hbm, 55, rfl⟩
abbrev main_call0_c_6 : Ref sig .tc := ⟨.hbm, 56, rfl⟩
abbrev main_call0_v29 : Ref sig .tc := ⟨.hbm, 57, rfl⟩
abbrev main_call0_v30 : Ref sig .tc := ⟨.hbm, 58, rfl⟩
abbrev main_call0_c_7 : Ref sig .tc := ⟨.hbm, 59, rfl⟩
abbrev main_call0_v31 : Ref sig .tc := ⟨.hbm, 60, rfl⟩
abbrev main_call0_v32 : Ref sig .tc := ⟨.hbm, 61, rfl⟩
abbrev main_call0_v33 : Ref sig .tc := ⟨.hbm, 62, rfl⟩
abbrev main_call0_v34 : Ref sig .tc := ⟨.hbm, 63, rfl⟩
abbrev main_call0_v35 : Ref sig .tc := ⟨.hbm, 64, rfl⟩
abbrev main_call0_v36 : Ref sig .tc := ⟨.hbm, 65, rfl⟩
abbrev main_call0_v37 : Ref sig .tc := ⟨.hbm, 66, rfl⟩
abbrev main_call0_v38 : Ref sig .tc := ⟨.hbm, 67, rfl⟩
abbrev main_call0_v39 : Ref sig .tc := ⟨.hbm, 68, rfl⟩
abbrev main_call0_cst_8 : Ref sig .tc := ⟨.hbm, 69, rfl⟩
abbrev main_call0_v40 : Ref sig .tc := ⟨.hbm, 70, rfl⟩
abbrev main_call0_v41 : Ref sig .tc := ⟨.hbm, 71, rfl⟩
abbrev main_call0_v42 : Ref sig .tc := ⟨.hbm, 72, rfl⟩
abbrev main_call0_cst_9 : Ref sig .tc := ⟨.hbm, 73, rfl⟩
abbrev main_call0_v43 : Ref sig .tc := ⟨.hbm, 74, rfl⟩
abbrev main_call0_cst_10 : Ref sig .tc := ⟨.hbm, 75, rfl⟩
abbrev main_call0_v44 : Ref sig .tc := ⟨.hbm, 76, rfl⟩
abbrev main_call0_v45 : Ref sig .tc := ⟨.hbm, 77, rfl⟩
abbrev main_call0_v46 : Ref sig .tc := ⟨.hbm, 78, rfl⟩
abbrev main_call0_v47 : Ref sig .tc := ⟨.hbm, 79, rfl⟩
abbrev main_call0_cst_11 : Ref sig .tc := ⟨.hbm, 80, rfl⟩
abbrev main_call0_v48 : Ref sig .tc := ⟨.hbm, 81, rfl⟩
abbrev main_call0_v49 : Ref sig .tc := ⟨.hbm, 82, rfl⟩
abbrev main_call0_cst_12 : Ref sig .tc := ⟨.hbm, 83, rfl⟩
abbrev main_call0_v50 : Ref sig .tc := ⟨.hbm, 84, rfl⟩
abbrev main_call0_v51 : Ref sig .tc := ⟨.hbm, 85, rfl⟩
abbrev main_call0_v52 : Ref sig .tc := ⟨.hbm, 86, rfl⟩
abbrev main_call0_v53 : Ref sig .tc := ⟨.hbm, 87, rfl⟩
abbrev main_call0_v54 : Ref sig .tc := ⟨.hbm, 88, rfl⟩
abbrev main_call0_cst_13 : Ref sig .tc := ⟨.hbm, 89, rfl⟩
abbrev main_call0_call1_v0 : Ref sig .tc := ⟨.hbm, 90, rfl⟩
abbrev main_call0_call1_v1 : Ref sig .tc := ⟨.hbm, 91, rfl⟩
abbrev main_call0_call1_v2 : Ref sig .tc := ⟨.hbm, 92, rfl⟩
abbrev main_call0_v55 : Ref sig .tc := ⟨.hbm, 93, rfl⟩
abbrev main_call0_v56 : Ref sig .tc := ⟨.hbm, 94, rfl⟩
abbrev main_call0_v57 : Ref sig .tc := ⟨.hbm, 95, rfl⟩
abbrev main_call0_v58 : Ref sig .tc := ⟨.hbm, 96, rfl⟩
abbrev main_v0_0 : Ref sig .tc := ⟨.hbm, 97, rfl⟩
abbrev main_call0_v60 : Ref sig .tc := ⟨.hbm, 98, rfl⟩
abbrev main_call0_v61 : Ref sig .tc := ⟨.hbm, 99, rfl⟩
abbrev main_call0_v62 : Ref sig .tc := ⟨.hbm, 100, rfl⟩
abbrev main_call0_v63 : Ref sig .tc := ⟨.hbm, 101, rfl⟩
abbrev main_call0_v64 : Ref sig .tc := ⟨.hbm, 102, rfl⟩
abbrev main_call0_v65 : Ref sig .tc := ⟨.hbm, 103, rfl⟩
abbrev main_call0_cst_14 : Ref sig .tc := ⟨.hbm, 104, rfl⟩
abbrev main_call0_v66 : Ref sig .tc := ⟨.hbm, 105, rfl⟩
abbrev main_v0_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  bitsLt_bf16_f32 : FTy.bits .bf16 < FTy.bits .f32
  bcast_S4000000x1_S4000000x64_0_1 : S4000000x1.BroadcastsInDim S4000000x64 (![0, 1] : Fin 2 → Fin S4000000x64.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  slices_S50000x256_S50000x64_0_0 : S50000x256.Slices ![0, 0] S50000x64
  bcast_S1x64_S50000x64_0_1 : S1x64.BroadcastsInDim S50000x64 (![0, 1] : Fin 2 → Fin S50000x64.rank)
  inb_S4000x256_S4000x256_0_0 : ∀ a, (![0, 0] : Fin 2 → Nat) a + S4000x256.size a ≤ S4000x256.size a
  h_S4000x256 : 0 < S4000x256.numel
  inb_S256x64_S256x64_0_0 : ∀ a, (![0, 0] : Fin 2 → Nat) a + S256x64.size a ≤ S256x64.size a
  h_S256x64 : 0 < S256x64.numel
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  inb_S5000x256_S5000x256_0_0 : ∀ a, (![0, 0] : Fin 2 → Nat) a + S5000x256.size a ≤ S5000x256.size a
  h_S5000x256 : 0 < S5000x256.numel
  inb_S5000x64_S5000x64_0_0 : ∀ a, (![0, 0] : Fin 2 → Nat) a + S5000x64.size a ≤ S5000x64.size a
  h_S5000x64 : 0 < S5000x64.numel
  gather_S200000x64_S4000000x1_S4000000x64_1_0_n_n_0_1_164_wf : GatherDims.WF S200000x64 S4000000x1 S4000000x64 [1] [0] [] [0] [] 1 ![1, 64]
  scatter_S200000x64_S4000000x1_S4000000x64_1_0_0_1_wf : ScatterDims.WF S200000x64 S4000000x1 S4000000x64 [1] [0] [0] 1
  scatter_S200000_S4000000x1_S4000000_n_0_0_1_wf : ScatterDims.WF S200000 S4000000x1 S4000000 [] [0] [0] 1
  gather_S200000x64_S1000000x1_S1000000x64_1_0_n_n_0_1_164_wf : GatherDims.WF S200000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S4000x256_S256x64_S4000x64_1_0_0_1_n_n_wf : DotDims.WF S4000x256 S256x64 S4000x64 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S200000x64.size a
  hwx0_4 : ∀ i : grid0.Coords, EltTy.bits .bf16 = 32 ∨ (Rect.block (s := S200000x64) S4000x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S200000x64.size a
  hwx0_5 : ∀ i : grid0.Coords, EltTy.bits .f32 = 32 ∨ (Rect.block (s := S200000x64) S4000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S200000x64.size a
  hwx0_6 : ∀ i : grid0.Coords, EltTy.bits .bf16 = 32 ∨ (Rect.block (s := S200000x64) S4000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def gather_S200000x64_S4000000x1_S4000000x64_1_0_n_n_0_1_164 : GatherDims S200000x64 S4000000x1 S4000000x64 where
  offsetDims := [1]
  collapsedSliceDims := [0]
  operandBatchingDims := []
  startIndicesBatchingDims := []
  startIndexMap := [0]
  indexVectorDim := 1
  sliceSizes := ![1, 64]
  wf := gather_S200000x64_S4000000x1_S4000000x64_1_0_n_n_0_1_164_wf
def scatter_S200000x64_S4000000x1_S4000000x64_1_0_0_1 : ScatterDims S200000x64 S4000000x1 S4000000x64 where
  updateWindowDims := [1]
  insertedWindowDims := [0]
  scatterDimsToOperandDims := [0]
  indexVectorDim := 1
  wf := scatter_S200000x64_S4000000x1_S4000000x64_1_0_0_1_wf
def scatter_S200000_S4000000x1_S4000000_n_0_0_1 : ScatterDims S200000 S4000000x1 S4000000 where
  updateWindowDims := []
  insertedWindowDims := [0]
  scatterDimsToOperandDims := [0]
  indexVectorDim := 1
  wf := scatter_S200000_S4000000x1_S4000000_n_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_1) S4000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0_2) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x256 : Shape := ⟨2, ![200000, 256]⟩
abbrev S50000x256 : Shape := ⟨2, ![50000, 256]⟩
abbrev S4000000 : Shape := ⟨1, ![4000000]⟩
abbrev S1000000 : Shape := ⟨1, ![1000000]⟩
abbrev S256x64 : Shape := ⟨2, ![256, 64]⟩
abbrev S64 : Shape := ⟨1, ![64]⟩
abbrev S200000x64 : Shape := ⟨2, ![200000, 64]⟩
abbrev S_ : Shape := ⟨0, ![]⟩
abbrev S4000000x1 : Shape := ⟨2, ![4000000, 1]⟩
abbrev S4000000x64 : Shape := ⟨2, ![4000000, 64]⟩
abbrev S200000 : Shape := ⟨1, ![200000]⟩
abbrev S200000x1 : Shape := ⟨2, ![200000, 1]⟩
abbrev S1x64 : Shape := ⟨2, ![1, 64]⟩
abbrev S1000000x1 : Shape := ⟨2, ![1000000, 1]⟩
abbrev S1000000x64 : Shape := ⟨2, ![1000000, 64]⟩
abbrev S50000x64 : Shape := ⟨2, ![50000, 64]⟩
abbrev S50000 : Shape := ⟨1, ![50000]⟩
abbrev S50000x1 : Shape := ⟨2, ![50000, 1]⟩

abbrev nBuf : Space → Nat
  | .hbm => 105
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S50000x256, .f32⟩
  | .hbm, ⟨2, _⟩ => ⟨S4000000, .i32⟩
  | .hbm, ⟨3, _⟩ => ⟨S4000000, .i32⟩
  | .hbm, ⟨4, _⟩ => ⟨S4000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S256x64, .f32⟩
  | .hbm, ⟨9, _⟩ => ⟨S256x64, .f32⟩
  | .hbm, ⟨10, _⟩ => ⟨S64, .f32⟩
  | .hbm, ⟨11, _⟩ => ⟨S256x64, .f32⟩
  | .hbm, ⟨12, _⟩ => ⟨S256x64, .f32⟩
  | .hbm, ⟨13, _⟩ => ⟨S64, .f32⟩
  | .hbm, ⟨14, _⟩ => ⟨S200000x64, .f32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S4000000x64, .f32⟩
  | .hbm, ⟨24, _⟩ => ⟨S4000000x1, .f32⟩
  | .hbm, ⟨25, _⟩ => ⟨S4000000x64, .f32⟩
  | .hbm, ⟨26, _⟩ => ⟨S4000000x64, .f32⟩
  | .hbm, ⟨27, _⟩ => ⟨S_, .f32⟩
  | .hbm, ⟨28, _⟩ => ⟨S200000x64, .f32⟩
  | .hbm, ⟨29, _⟩ => ⟨S4000000x1, .i32⟩
  | .hbm, ⟨30, _⟩ => ⟨S200000x64, .f32⟩
  | .hbm, ⟨31, _⟩ => ⟨S_, .f32⟩
  | .hbm, ⟨32, _⟩ => ⟨S4000000, .f32⟩
  | .hbm, ⟨33, _⟩ => ⟨S_, .f32⟩
  | .hbm, ⟨34, _⟩ => ⟨S200000, .f32⟩
  | .hbm, ⟨35, _⟩ => ⟨S4000000x1, .i32⟩
  | .hbm, ⟨36, _⟩ => ⟨S200000, .f32⟩
  | .hbm, ⟨37, _⟩ => ⟨S200000x1, .f32⟩
  | .hbm, ⟨38, _⟩ => ⟨S_, .f32⟩
  | .hbm, ⟨39, _⟩ => ⟨S200000x1, .f32⟩
  | .hbm, ⟨40, _⟩ => ⟨S200000x1, .i1⟩
  | .hbm, ⟨41, _⟩ => ⟨S_, .f32⟩
  | .hbm, ⟨42, _⟩ => ⟨S200000, .f32⟩
  | .hbm, ⟨43, _⟩ => ⟨S200000, .f32⟩
  | .hbm, ⟨44, _⟩ => ⟨S200000x1, .f32⟩
  | .hbm, ⟨45, _⟩ => ⟨S200000x64, .f32⟩
  | .hbm, ⟨46, _⟩ => ⟨S200000x64, .f32⟩
  | .hbm, ⟨47, _⟩ => ⟨S_, .f32⟩
  | .hbm, ⟨48, _⟩ => ⟨S_, .f32⟩
  | .hbm, ⟨49, _⟩ => ⟨S200000x64, .i1⟩
  | .hbm, ⟨50, _⟩ => ⟨S200000x64, .f32⟩
  | .hbm, ⟨51, _⟩ => ⟨S200000x64, .f32⟩
  | .hbm, ⟨52, _⟩ => ⟨S200000x64, .f32⟩
  | .hbm, ⟨53, _⟩ => ⟨S200000x64, .f32⟩
  | .hbm, ⟨54, _⟩ => ⟨S1x64, .f32⟩
  | .hbm, ⟨55, _⟩ => ⟨S200000x64, .f32⟩
  | .hbm, ⟨56, _⟩ => ⟨S200000x64, .f32⟩
  | .hbm, ⟨57, _⟩ => ⟨S200000x64, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S1000000x1, .f32⟩
  | .hbm, ⟨68, _⟩ => ⟨S1000000x64, .f32⟩
  | .hbm, ⟨69, _⟩ => ⟨S1000000x64, .f32⟩
  | .hbm, ⟨70, _⟩ => ⟨S_, .f32⟩
  | .hbm, ⟨71, _⟩ => ⟨S50000x64, .f32⟩
  | .hbm, ⟨72, _⟩ => ⟨S1000000x1, .i32⟩
  | .hbm, ⟨73, _⟩ => ⟨S50000x64, .f32⟩
  | .hbm, ⟨74, _⟩ => ⟨S_, .f32⟩
  | .hbm, ⟨75, _⟩ => ⟨S1000000, .f32⟩
  | .hbm, ⟨76, _⟩ => ⟨S_, .f32⟩
  | .hbm, ⟨77, _⟩ => ⟨S50000, .f32⟩
  | .hbm, ⟨78, _⟩ => ⟨S1000000x1, .i32⟩
  | .hbm, ⟨79, _⟩ => ⟨S50000, .f32⟩
  | .hbm, ⟨80, _⟩ => ⟨S50000x1, .f32⟩
  | .hbm, ⟨81, _⟩ => ⟨S_, .f32⟩
  | .hbm, ⟨82, _⟩ => ⟨S50000x1, .f32⟩
  | .hbm, ⟨83, _⟩ => ⟨S50000x1, .i1⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S_, .f32⟩
  | .hbm, ⟨92, _⟩ => ⟨S50000x64, .i1⟩
  | .hbm, ⟨93, _⟩ => ⟨S50000x64, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000x64, .f32⟩
  | .hbm, ⟨104, _⟩ => ⟨S50000x64, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_v52 : Ref sig .tc := ⟨.hbm, 83, rfl⟩
abbrev main_cst_12 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  slices_S50000x256_S50000x64_0_0 : S50000x256.Slices ![0, 0] S50000x64
  dot_S200000x256_S256x64_S200000x64_1_0_0_1_n_n_wf : DotDims.WF S200000x256 S256x64 S200000x64 [1] [0] [0] [1] [] []
  gather_S200000x64_S4000000x1_S4000000x64_1_0_n_n_0_1_164_wf : GatherDims.WF S200000x64 S4000000x1 S4000000x64 [1] [0] [] [0] [] 1 ![1, 64]
  scatter_S200000x64_S4000000x1_S4000000x64_1_0_0_1_wf : ScatterDims.WF S200000x64 S4000000x1 S4000000x64 [1] [0] [0] 1
  scatter_S200000_S4000000x1_S4000000_n_0_0_1_wf : ScatterDims.WF S200000 S4000000x1 S4000000 [] [0] [0] 1
  gather_S200000x64_S1000000x1_S1000000x64_1_0_n_n_0_1_164_wf : GatherDims.WF S200000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S50000x256_S256x64_S50000x64_1_0_0_1_n_n_wf : DotDims.WF S50000x256 S256x64 S50000x64 [1] [0] [0] [1] [] []

variable [Facts₀]

def dot_S200000x256_S256x64_S200000x64_1_0_0_1_n_n : DotDims S200000x256 S256x64 S200000x64 where
  lhsContracting := [1]
  rhsContracting := [0]
  lhsNonContracting := [0]
  rhsNonContracting := [1]
  lhsBatch := []
  rhsBatch := []
  wf := dot_S200000x256_S256x64_S200000x64_1_0_0_1_n_n_wf
def gather_S200000x64_S4000000x1_S4000000x64_1_0_n_n_0_1_164 : GatherDims S200000x64 S4000000x1 S4000000x64 where
  offsetDims := [1]
  collapsedSliceDims := [0]
  operandBatchingDims := []
  startIndicesBatchingDims := []
  startIndexMap := [0]
  indexVectorDim := 1
  sliceSizes := ![1, 64]
  wf := gather_S200000x64_S4000000x1_S4000000x64_1_0_n_n_0_1_164_wf
def scatter_S200000x64_S4000000x1_S4000000x64_1_0_0_1 : ScatterDims S200000x64 S4000000x1 S4000000x64 where
  updateWindowDims := [1]
  insertedWindowDims := [0]
  scatterDimsToOperandDims := [0]
  indexVectorDim := 1
  wf := scatter_S200000x64_S4000000x1_S4000000x64_1_0_0_1_wf
def scatter_S200000_S4000000x1_S4000000_n_0_0_1 : ScatterDims S200000 S4000000x1 S4000000 where
  updateWindowDims := []
  insertedWindowDims := [0]
  scatterDimsToOperandDims := [0]
  indexVectorDim := 1
  wf := scatter_S200000_S4000000x1_S4000000_n_0_0_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The idealized kernel's run with its two result arrays named.

  The program is two pipelined regions (the three projections of the first feature matrix, then the projection of the
  second) followed by one straight line of host operations.  Every weakly fair execution terminates, and in the final
  state each unscoped buffer holds what the last boundary's contents say: the host line's fold over the contents the
  second region leaves.  Here that is read at the two result buffers as well as at the fourteen arguments.
-/
import proofs.«120549_j69990787056126_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault; each of
    the two result arrays ends at the host line's fold over the contents the second region leaves, read at that
    buffer, and every argument array ends as launched. -/
theorem run_results : θ_run defs (onTc (τ := τ) (main (F := F))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v0_1) = W3 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c)⟩)

end Cert.KernelIdeal.Hand

end
-- ==== Proof.Tail.lean ====
/-
  What both programs do after the four dense projections, as functions of the projected matrices.

  For one edge type with source indices src, target indices dst and edge weights w over E edges into N target rows:
  a source index that is negative is first wrapped by adding the number of source rows; edge e carries the message
  h[src e] · w e (row src e of the projected neighbour features scaled by the edge's weight); the messages are summed
  into their target rows, and so is the constant one, which gives each target row's degree; a row of positive degree
  receives the sum divided by max(degree, 1), any other row receives zero.  The first output adds that neighbour mean
  and the bias row to the self projection.  The second output adds the first 64 columns of the word features, the self
  projection, the neighbour mean and the bias row, and halves the sum.

  The operations are spelt with the reference program's shapes and dimension records (whose stated side conditions
  are the proved ones), so that the reference's result terms are these functions of its own matrix products by
  unfolding alone.
-/
import proofs.«120549_j69990787056126_2_alg».proof.Proof.Gen.ReferenceIdeal
import Idealize.ShloMosaic.PureOps.Ideal

noncomputable section

namespace Cert.Tail

open Idealize.ShloMosaic Idealize.ShloMosaic.TcCoe Idealize.SL.Sem Cert.ReferenceIdeal Cert.ReferenceIdeal.Gen

/-! ## The edges between the acoustic rows: 4000000 edges, 200000 source rows, 200000 target rows -/

/-- A negative source index counts from the end: 200000 is added to it. -/
def wrapTic (src : IVec S4000000 32) : IVec S4000000 32 :=
  select (cmpi .slt src (broadcastInDim S4000000 ![] bcast_S_S4000000 (constantI S_ 32 0#32)))
    (addi src (broadcastInDim S4000000 ![] bcast_S_S4000000 (constantI S_ 32 200000#32))) src

/-- Edge e's message: row src e of the projected features, scaled by the edge's weight. -/
def msgTic (h : FVec Ideal S200000x64 .f32) (src : IVec S4000000 32) (w : FVec Ideal S4000000 .f32) : FVec Ideal S4000000x64 .f32 :=
  mulf (Host.gather gather_S200000x64_S4000000x1_S4000000x64_1_0_n_n_0_1_164 h
      (broadcastInDim S4000000x1 ![0] bcast_S4000000_S4000000x1_0 (wrapTic src)))
    (broadcastInDim S4000000x64 ![0, 1] bcast_S4000000x1_S4000000x64_0_1 (broadcastInDim S4000000x1 ![0] bcast_S4000000_S4000000x1_0 w))

/-- The messages summed into their target rows. -/
def sumTic (h : FVec Ideal S200000x64 .f32) (src dst : IVec S4000000 32) (w : FVec Ideal S4000000 .f32) : FVec Ideal S200000x64 .f32 :=
  Host.scatterAdd (F := Ideal) scatter_S200000x64_S4000000x1_S4000000x64_1_0_0_1
    (broadcastInDim S200000x64 ![] bcast_S_S200000x64 (constant S_ .f32 0x00000000#32))
    (broadcastInDim S4000000x1 ![0] bcast_S4000000_S4000000x1_0 dst) (msgTic h src w)

/-- Each target row's degree: the constant one summed over the edges that point at it. -/
def degTic (dst : IVec S4000000 32) : FVec Ideal S200000 .f32 :=
  Host.scatterAdd (F := Ideal) scatter_S200000_S4000000x1_S4000000_n_0_0_1
    (broadcastInDim S200000 ![] bcast_S_S200000 (constant S_ .f32 0x00000000#32))
    (broadcastInDim S4000000x1 ![0] bcast_S4000000_S4000000x1_0 dst)
    (broadcastInDim S4000000 ![] bcast_S_S4000000 (constant S_ .f32 0x3F800000#32))

/-- The neighbour mean: the summed messages over max(degree, 1) on the rows of positive degree, zero on the others. -/
def meanTic (h : FVec Ideal S200000x64 .f32) (src dst : IVec S4000000 32) (w : FVec Ideal S4000000 .f32) : FVec Ideal S200000x64 .f32 :=
  select
    (broadcastInDim S200000x64 ![0, 1] bcast_S200000x1_S200000x64_0_1
      (cmpf .ogt (broadcastInDim S200000x1 ![0] bcast_S200000_S200000x1_0 (degTic dst))
        (broadcastInDim S200000x1 ![] bcast_S_S200000x1 (constant (F := Ideal) S_ .f32 0x00000000#32))))
    (Host.divf (sumTic h src dst w)
      (broadcastInDim S200000x64 ![0, 1] bcast_S200000x1_S200000x64_0_1
        (broadcastInDim S200000x1 ![0] bcast_S200000_S200000x1_0
          (maximumf (degTic dst) (broadcastInDim S200000 ![] bcast_S_S200000 (constant S_ .f32 0x3F800000#32))))))
    (broadcastInDim S200000x64 ![] bcast_S_S200000x64 (id (constant S_ .f32 0x00000000#32)))

/-- The first output: self projection + neighbour mean + bias row. -/
def outAc (hself hneigh : FVec Ideal S200000x64 .f32) (src dst : IVec S4000000 32) (w : FVec Ideal S4000000 .f32)
    (b : FVec Ideal S64 .f32) : FVec Ideal S200000x64 .f32 :=
  addf (addf hself (meanTic hneigh src dst w))
    (broadcastInDim S200000x64 ![0, 1] bcast_S1x64_S200000x64_0_1 (broadcastInDim S1x64 ![1] bcast_S64_S1x64_1 b))

/-! ## The edges from acoustic rows to word rows: 1000000 edges, 200000 source rows, 50000 target rows -/

/-- A negative source index counts from the end: 200000 is added to it. -/
def wrapRel (src : IVec S1000000 32) : IVec S1000000 32 :=
  select (cmpi .slt src (broadcastInDim S1000000 ![] bcast_S_S1000000 (constantI S_ 32 0#32)))
    (addi src (broadcastInDim S1000000 ![] bcast_S_S1000000 (constantI S_ 32 200000#32))) src

/-- Edge e's message: row src e of the projected features, scaled by the edge's weight. -/
def msgRel (h : FVec Ideal S200000x64 .f32) (src : IVec S1000000 32) (w : FVec Ideal S1000000 .f32) : FVec Ideal S1000000x64 .f32 :=
  mulf (Host.gather gather_S200000x64_S1000000x1_S1000000x64_1_0_n_n_0_1_164 h
      (broadcastInDim S1000000x1 ![0] bcast_S1000000_S1000000x1_0 (wrapRel src)))
    (broadcastInDim S1000000x64 ![0, 1] bcast_S1000000x1_S1000000x64_0_1 (broadcastInDim S1000000x1 ![0] bcast_S1000000_S1000000x1_0 w))

/-- The messages summed into their target rows. -/
def sumRel (h : FVec Ideal S200000x64 .f32) (src dst : IVec S1000000 32) (w : FVec Ideal S1000000 .f32) : FVec Ideal S50000x64 .f32 :=
  Host.scatterAdd (F := Ideal) scatter_S50000x64_S1000000x1_S1000000x64_1_0_0_1
    (broadcastInDim S50000x64 ![] bcast_S_S50000x64 (constant S_ .f32 0x00000000#32))
    (broadcastInDim S1000000x1 ![0] bcast_S1000000_S1000000x1_0 dst) (msgRel h src w)

/-- Each target row's degree. -/
def degRel (dst : IVec S1000000 32) : FVec Ideal S50000 .f32 :=
  Host.scatterAdd (F := Ideal) scatter_S50000_S1000000x1_S1000000_n_0_0_1
    (broadcastInDim S50000 ![] bcast_S_S50000 (constant S_ .f32 0x00000000#32))
    (broadcastInDim S1000000x1 ![0] bcast_S1000000_S1000000x1_0 dst)
    (broadcastInDim S1000000 ![] bcast_S_S1000000 (constant S_ .f32 0x3F800000#32))

/-- The neighbour mean of the word rows. -/
def meanRel (h : FVec Ideal S200000x64 .f32) (src dst : IVec S1000000 32) (w : FVec Ideal S1000000 .f32) : FVec Ideal S50000x64 .f32 :=
  select
    (broadcastInDim S50000x64 ![0, 1] bcast_S50000x1_S50000x64_0_1
      (cmpf .ogt (broadcastInDim S50000x1 ![0] bcast_S50000_S50000x1_0 (degRel dst))
        (broadcastInDim S50000x1 ![] bcast_S_S50000x1 (constant (F := Ideal) S_ .f32 0x00000000#32))))
    (Host.divf (sumRel h src dst w)
      (broadcastInDim S50000x64 ![0, 1] bcast_S50000x1_S50000x64_0_1
        (broadcastInDim S50000x1 ![0] bcast_S50000_S50000x1_0
          (maximumf (degRel dst) (broadcastInDim S50000 ![] bcast_S_S50000 (constant S_ .f32 0x3F800000#32))))))
    (broadcastInDim S50000x64 ![] bcast_S_S50000x64 (id (constant S_ .f32 0x00000000#32)))

/-- The bias row repeated down the 50000 word rows. -/
def biasW (b : FVec Ideal S64 .f32) : FVec Ideal S50000x64 .f32 :=
  broadcastInDim S50000x64 ![0, 1] bcast_S1x64_S50000x64_0_1 (broadcastInDim S1x64 ![1] bcast_S64_S1x64_1 b)

/-- The first 64 columns of the word features. -/
def headW (xw : FVec Ideal S50000x256 .f32) : FVec Ideal S50000x64 .f32 :=
  extractStridedSlice S50000x64 ![0, 0] xw slices_S50000x256_S50000x64_0_0

/-- The constant one half at every entry. -/
def halfW : FVec Ideal S50000x64 .f32 :=
  broadcastInDim S50000x64 ![] bcast_S_S50000x64 (constant S_ .f32 0x3F000000#32)

/-- The second output as the reference associates it: half of (head + ((self + mean) + bias)). -/
def outW (hself : FVec Ideal S50000x64 .f32) (hneigh : FVec Ideal S200000x64 .f32) (xw : FVec Ideal S50000x256 .f32)
    (src dst : IVec S1000000 32) (w : FVec Ideal S1000000 .f32) (b : FVec Ideal S64 .f32) : FVec Ideal S50000x64 .f32 :=
  mulf halfW (addf (headW xw) (addf (addf hself (meanRel hneigh src dst w)) (biasW b)))

/-- The same four terms added from the left, as the kernel's program associates them:
    half of (((head + self) + mean) + bias). -/
def outWLeft (hself : FVec Ideal S50000x64 .f32) (hneigh : FVec Ideal S200000x64 .f32) (xw : FVec Ideal S50000x256 .f32)
    (src dst : IVec S1000000 32) (w : FVec Ideal S1000000 .f32) (b : FVec Ideal S64 .f32) : FVec Ideal S50000x64 .f32 :=
  mulf halfW (addf (addf (addf (headW xw) hself) (meanRel hneigh src dst w)) (biasW b))

/-- Addition of extended reals is associative, so the two ways of adding the four terms agree entry by entry. -/
theorem outWLeft_eq (hself : FVec Ideal S50000x64 .f32) (hneigh : FVec Ideal S200000x64 .f32) (xw : FVec Ideal S50000x256 .f32)
    (src dst : IVec S1000000 32) (w : FVec Ideal S1000000 .f32) (b : FVec Ideal S64 .f32) :
    outWLeft hself hneigh xw src dst w b = outW hself hneigh xw src dst w b := by
  unfold outWLeft outW
  congr 1
  funext i
  simp only [addf, Ideal.addf_def]
  simp only [add_assoc]

end Cert.Tail

end
-- ==== Proof.LibBufCasts.lean ====
/-
  Contents of a typed buffer reference, moved to the buffer's own type and back.

  A function called from @main states its operations at the types of the tensor values; each operand is moved from its
  buffer's type to the value's type, and each result back, along the equation "the buffer's type is the value's type".
  Whatever that equation's proof, the two moves cancel: reading a called function's line of operations leaves them
  stacked in pairs around every intermediate value, and these two equations remove the pairs without unfolding anything.
-/
import Idealize.ShloMosaic.Lib.StableHlo

namespace Cert.Lib.BufCasts

open Idealize.ShloMosaic Idealize.ShloMosaic.StableHlo

variable {sig : RefSig} {Val : EltTy → Type} {T : BufTy}

/-- Contents moved to the buffer's own type and back to the value's type are unchanged. -/
theorem ofBuf_toBuf (x : TRef sig T) (v : T.Contents Val) : x.ofBuf (x.toBuf v) = v := by
  obtain ⟨r, h, h1, h2⟩ := x
  subst h
  rfl

/-- Contents moved to the value's type and back to the buffer's own type are unchanged. -/
theorem toBuf_ofBuf (x : TRef sig T) (v : x.ref.ty.Contents Val) : x.toBuf (x.ofBuf v) = v := by
  obtain ⟨r, h, h1, h2⟩ := x
  subst h
  rfl

end Cert.Lib.BufCasts
-- ==== Proof.KernelHost.lean ====
/-
  The kernel program's host line, read at its two results.

  After the two regions the program runs one straight line of host operations over the four projected matrices and
  the index, weight and bias arguments.  Read at the first result it is the self projection plus the neighbour mean
  plus the bias row; read at the second it is half of the four terms head, self projection, neighbour mean and bias
  row added from the left.  The neighbour features are gathered from the array the region wrote in the narrow float
  format and then widened: at exact arithmetic a change of format is the identity, so this is the gather itself.
  The index, weight and bias arrays are written by neither region, so the line finds them as launched.
  The line is the body of a called function: each value is moved to its buffer's type when stored and back when read,
  and the two moves cancel.
-/
import proofs.«120549_j69990787056126_2_alg».proof.Proof.Gen.KernelIdeal.Frame
import proofs.«120549_j69990787056126_2_alg».proof.Proof.Tail
import proofs.«120549_j69990787056126_2_alg».proof.Proof.LibBufCasts

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## The arguments the host line reads are as launched when it starts -/

theorem W2_arg2 (c : Dev nD) : W2 m ρ c (Proc.devRef .tc main_arg2) = m ((c : Thread nD τ).loc main_arg2) :=
  (W2_of_ne m ρ c main_arg2 (by decide)).trans (W1_of_ne m ρ c main_arg2 (by decide))
theorem W2_arg3 (c : Dev nD) : W2 m ρ c (Proc.devRef .tc main_arg3) = m ((c : Thread nD τ).loc main_arg3) :=
  (W2_of_ne m ρ c main_arg3 (by decide)).trans (W1_of_ne m ρ c main_arg3 (by decide))
theorem W2_arg4 (c : Dev nD) : W2 m ρ c (Proc.devRef .tc main_arg4) = m ((c : Thread nD τ).loc main_arg4) :=
  (W2_of_ne m ρ c main_arg4 (by decide)).trans (W1_of_ne m ρ c main_arg4 (by decide))
theorem W2_arg5 (c : Dev nD) : W2 m ρ c (Proc.devRef .tc main_arg5) = m ((c : Thread nD τ).loc main_arg5) :=
  (W2_of_ne m ρ c main_arg5 (by decide)).trans (W1_of_ne m ρ c main_arg5 (by decide))
theorem W2_arg6 (c : Dev nD) : W2 m ρ c (Proc.devRef .tc main_arg6) = m ((c : Thread nD τ).loc main_arg6) :=
  (W2_of_ne m ρ c main_arg6 (by decide)).trans (W1_of_ne m ρ c main_arg6 (by decide))
theorem W2_arg7 (c : Dev nD) : W2 m ρ c (Proc.devRef .tc main_arg7) = m ((c : Thread nD τ).loc main_arg7) :=
  (W2_of_ne m ρ c main_arg7 (by decide)).trans (W1_of_ne m ρ c main_arg7 (by decide))
theorem W2_arg10 (c : Dev nD) : W2 m ρ c (Proc.devRef .tc main_arg10) = m ((c : Thread nD τ).loc main_arg10) :=
  (W2_of_ne m ρ c main_arg10 (by decide)).trans (W1_of_ne m ρ c main_arg10 (by decide))
theorem W2_arg13 (c : Dev nD) : W2 m ρ c (Proc.devRef .tc main_arg13) = m ((c : Thread nD τ).loc main_arg13) :=
  (W2_of_ne m ρ c main_arg13 (by decide)).trans (W1_of_ne m ρ c main_arg13 (by decide))
/-- The word features are the second region's row window: an input window's array is left as entered. -/
theorem W2_arg1 (c : Dev nD) : W2 m ρ c (Proc.devRef .tc main_arg1) = m ((c : Thread nD τ).loc main_arg1) :=
  ((W2_arr m ρ c 0).trans (((dat1 (V1 m ρ) c).arrAt_in 0 rfl _).trans (A_eq1 (V1 m ρ) c 0))).trans
    (W1_of_ne m ρ c main_arg1 (by decide))

/-! ## The line at its results -/

set_option maxHeartbeats 4000000 in
/-- The first result: self projection + neighbour mean over the acoustic edges + bias row. -/
theorem host_out0 (c : Dev nD) :
    W3 m ρ c (Proc.devRef .tc main_v0_0)
      = Cert.Tail.outAc (W2 m ρ c (Proc.devRef .tc main_call0_v0_1)) (W2 m ρ c (Proc.devRef .tc main_call0_v0_0))
          (W2 m ρ c (Proc.devRef .tc main_arg2)) (W2 m ρ c (Proc.devRef .tc main_arg3))
          (W2 m ρ c (Proc.devRef .tc main_arg4)) (W2 m ρ c (Proc.devRef .tc main_arg10)) := by
  show StableHlo.after hostOps2 (W2 m ρ c) (Proc.devRef .tc main_v0_0) = _
  generalize W2 m ρ c = V
  after_results_simp
  simp only [Cert.Lib.BufCasts.ofBuf_toBuf]
  rfl

set_option maxHeartbeats 4000000 in
/-- The second result: half of (((head + self projection) + neighbour mean over the word edges) + bias row). -/
theorem host_out1 (c : Dev nD) :
    W3 m ρ c (Proc.devRef .tc main_v0_1)
      = Cert.Tail.outWLeft (W2 m ρ c (Proc.devRef .tc main_call0_v1)) (W2 m ρ c (Proc.devRef .tc main_call0_v0_2))
          (W2 m ρ c (Proc.devRef .tc main_arg1))
          (W2 m ρ c (Proc.devRef .tc main_arg5)) (W2 m ρ c (Proc.devRef .tc main_arg6))
          (W2 m ρ c (Proc.devRef .tc main_arg7)) (W2 m ρ c (Proc.devRef .tc main_arg13)) := by
  show StableHlo.after hostOps2 (W2 m ρ c) (Proc.devRef .tc main_v0_1) = _
  generalize W2 m ρ c = V
  after_results_simp
  simp only [Cert.Lib.BufCasts.ofBuf_toBuf]
  rfl

end Cert.KernelIdeal.Hand

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.Spec.lean ====
/-
  The dense projection that the two programs share, as one function of two matrices.

  Both programs multiply a feature matrix with 256 columns by a 256×64 weight matrix; at exact arithmetic the entry
  (p, q) of the product is the sum over k of x(p, k) · W(k, q), whichever unit computes it and however the rows are
  tiled.  This module names that function and reads it at an entry given by its two coordinates.
-/
import Idealize.ShloMosaic.Lib.ValueIdx
import Idealize.ShloMosaic.PureOps.Ideal.Laws

noncomputable section

namespace Cert.Spec

open Idealize.ShloMosaic Idealize.ShloMosaic.ValueIdx

/-- The product x·W of an n×256 matrix by a 256×64 matrix over the extended reals: entry (p, q) is Σₖ x(p, k)·W(k, q). -/
def proj {n : Nat} (x : (⟨2, ![n, 256]⟩ : Shape).Idx → EReal) (W : (⟨2, ![256, 64]⟩ : Shape).Idx → EReal) :
    (⟨2, ![n, 64]⟩ : Shape).Idx → EReal :=
  fun i => ∑ k : Fin 256, x (ix2 (n0 := n) ⟨(i 0).val, (i 0).isLt⟩ k) * W (ix2 (n1 := 64) k ⟨(i 1).val, (i 1).isLt⟩)

/-- The product read at an index whose coordinates are the row r and the column q. -/
theorem proj_apply {n : Nat} (x : (⟨2, ![n, 256]⟩ : Shape).Idx → EReal) (W : (⟨2, ![256, 64]⟩ : Shape).Idx → EReal)
    (i : (⟨2, ![n, 64]⟩ : Shape).Idx) (r : Fin n) (q : Fin 64) (h0 : (i 0).val = r.val) (h1 : (i 1).val = q.val) :
    proj x W i = ∑ k : Fin 256, x (ix2 r k) * W (ix2 k q) := by
  unfold proj
  have e0 : (⟨(i 0).val, (i 0).isLt⟩ : Fin n) = r := Fin.ext h0
  have e1 : (⟨(i 1).val, (i 1).isLt⟩ : Fin 64) = q := Fin.ext h1
  rw [e0, e1]

end Cert.Spec

end
-- ==== Proof.SelfTic.lean ====
/-
  The self projection of the first feature matrix, as the first region leaves it in its array.

  The region walks the 200000 rows of x in 50 blocks of 4000 rows.  At block t it multiplies rows 4000·t … 4000·t + 3999
  of x by the whole 256×64 weight matrix into a zero accumulator and writes the 4000×64 product back as block t of the
  output array.  Entry (p, q) of that block is Σₖ x(4000·t + p, k)·W(k, q), which is entry (4000·t + p, q) of the one
  product x·W; the 50 blocks tile the array, so after the region the array holds x·W.
-/
import proofs.«120549_j69990787056126_2_alg».proof.Proof.Gen.KernelIdeal.Frame
import proofs.«120549_j69990787056126_2_alg».proof.Proof.LibDotEntry
import proofs.«120549_j69990787056126_2_alg».proof.Proof.LibMatDims
import proofs.«120549_j69990787056126_2_alg».proof.Proof.Spec
import Idealize.ShloMosaic.Lib.Pipeline.Value
import Idealize.ShloMosaic.Lib.ValueIdx

set_option maxRecDepth 16384

noncomputable section

namespace Cert.KernelIdeal.Hand.W5

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The body's product of a 4000×256 block by the weight matrix, read at entry (p, q): a change of float format is the
    identity at exact arithmetic, and a product into a zero accumulator is the plain sum over the contracted axis. -/
theorem pay_apply (x : Vec Ideal S4000x256 .f32) (W : Vec Ideal S256x64 .f32) (p : Fin 4000) (q : Fin 64) :
    k0_pay3 x W (ix2 p q) = ∑ k : Fin 256, x (ix2 p k) * W (ix2 k q) := by
  unfold k0_pay3 k0_pay1
  exact Cert.Lib.DotEntry.matmul_zero_ix2 dot_S4000x256_S256x64_S4000x64_1_0_0_1_n_n
    (Cert.Lib.MatDims.contr_rank _ rfl) (Cert.Lib.MatDims.contr_size _ rfl)
    (Cert.Lib.MatDims.lhs_row _ rfl rfl) (Cert.Lib.MatDims.lhs_col _ rfl)
    (Cert.Lib.MatDims.rhs_row _ rfl rfl) (Cert.Lib.MatDims.rhs_col _ rfl rfl rfl rfl) _ _ p q

/-- Where the printed index maps put block t: the row window and the output window at block row t, block column 0;
    the weight window always at its one block. -/
theorem idx_facts : ∀ t : Fin cfg0.N,
    win0_0.index t (0 : Fin 2) = t.val ∧ win0_0.index t (1 : Fin 2) = 0
    ∧ win0_2.index t (0 : Fin 2) = 0 ∧ win0_2.index t (1 : Fin 2) = 0
    ∧ win0_5.index t (0 : Fin 2) = t.val ∧ win0_5.index t (1 : Fin 2) = 0 :=
  (by decide +kernel : ∀ t : Fin grid0.N, _)

/-- Row p, column k of the feature block at point t is row 4000·t + p, column k of the feature matrix. -/
theorem xblk_apply (c : Dev nD) (t : Fin cfg0.N) (p : Fin 4000) (k : Fin 256) (r : Fin 200000)
    (hr : r.val = 4000 * t.val + p.val) :
    (iblk0 (V0 m ρ) c 0 t : Vec Ideal S4000x256 .f32) (ix2 p k)
      = (m ((c : Thread nD τ).loc main_arg0) : S200000x256.Idx → EReal) (ix2 r k) := by
  obtain ⟨e0, e1, -⟩ := idx_facts t
  unfold iblk0
  rw [View.read_apply]
  show m ((c : Thread nD τ).loc main_arg0) _ = m ((c : Thread nD τ).loc main_arg0) _
  congr 1
  funext a
  apply Fin.ext
  match a with
  | ⟨0, _⟩ => show win0_0.index t 0 * 4000 + 1 * p.val = r.val; rw [e0, hr]; omega
  | ⟨1, _⟩ => show win0_0.index t 1 * 256 + 1 * k.val = k.val; rw [e1]; omega

/-- The weight window's one block is the weight matrix. -/
theorem wblk_apply (c : Dev nD) (t : Fin cfg0.N) (k : Fin 256) (q : Fin 64) :
    (iblk0 (V0 m ρ) c 2 t : Vec Ideal S256x64 .f32) (ix2 k q)
      = (m ((c : Thread nD τ).loc main_arg8) : S256x64.Idx → EReal) (ix2 k q) := by
  obtain ⟨-, -, e0, e1, -⟩ := idx_facts t
  unfold iblk0
  rw [View.read_apply]
  show m ((c : Thread nD τ).loc main_arg8) _ = m ((c : Thread nD τ).loc main_arg8) _
  congr 1
  funext a
  apply Fin.ext
  match a with
  | ⟨0, _⟩ => show win0_2.index t 0 * 256 + 1 * k.val = k.val; rw [e0]; omega
  | ⟨1, _⟩ => show win0_2.index t 1 * 64 + 1 * q.val = q.val; rw [e1]; omega

/-- The whole product x·W of the launch contents of the feature matrix and the weight matrix. -/
abbrev G (c : Dev nD) : S200000x64.Idx → EReal :=
  Cert.Spec.proj (n := 200000) (m ((c : Thread nD τ).loc main_arg0)) (m ((c : Thread nD τ).loc main_arg8))

/-- What point t writes back is block t of the whole product. -/
theorem flushed_eq (c : Dev nD) (t : Fin cfg0.N) :
    (dat0 (V0 m ρ) c).flushed 5 t = ((cfg0.win 5).blk t).view.read (Elt Ideal) (G m c) := by
  show (cfg0.win 5).cut (grid0.coords t) ((dat0 (V0 m ρ) c).after 5 t) = _
  rw [after0_5]
  unfold out0_5
  rw [View.canon_unit_zero hz]
  simp only [View.ld_unit_zero (S := S4000x256) hz, View.ld_unit_zero (S := S256x64) hz]
  obtain ⟨-, -, -, -, e0, e1⟩ := idx_facts t
  have hN : cfg0.N = 50 := N_0
  have ht : t.val < 50 := hN ▸ t.isLt
  funext j
  obtain ⟨p, q, rfl⟩ : ∃ (p : Fin 4000) (q : Fin 64), j = ix2 p q := ⟨j 0, j 1, eq_ix2 j⟩
  show k0_pay3 (iblk0 (V0 m ρ) c 0 t) (iblk0 (V0 m ρ) c 2 t) (ix2 p q) = G m c (((cfg0.win 5).blk t).view.emb (ix2 p q))
  refine (pay_apply _ _ p q).trans ?_
  refine (Finset.sum_congr rfl fun k _ => ?_).trans
    (Cert.Spec.proj_apply (n := 200000) _ _ _ ⟨4000 * t.val + p.val, by have := p.isLt; omega⟩ q ?_ ?_).symm
  · rw [xblk_apply m ρ c t p k ⟨4000 * t.val + p.val, by have := p.isLt; omega⟩ rfl, wblk_apply m ρ c t k q]
  · show win0_5.index t 0 * 4000 + 1 * p.val = 4000 * t.val + p.val; rw [e0]; omega
  · show win0_5.index t 1 * 64 + 1 * q.val = q.val; rw [e1]; omega

/-- An index of the array is in point t's block iff each coordinate is in the block's range on its axis. -/
theorem mem_blk (t : Fin cfg0.N) (i : S200000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_call0_v0_1).slice (win0_5.rect t)).set ↔ _
  rw [View.set_slice_whole, Rect.mem_set_unit]
  exact Iff.rfl

/-- After the region the output array holds the whole product: row r lies in block r / 4000. -/
theorem final (c : Dev nD) : (dat0 (V0 m ρ) c).arrAt 5 cfg0.N = G m c :=
  (dat0 (V0 m ρ) c).arrAt_eq_of_cover 5 (G m c) (fun t _ => flushed_eq m ρ c t) fun i => by
    have hN : cfg0.N = 50 := N_0
    have h0 : (i 0).val < 200000 := (i 0).isLt
    have h1 : (i 1).val < 64 := (i 1).isLt
    let t : Fin cfg0.N := ⟨(i 0).val / 4000, by omega⟩
    obtain ⟨-, -, -, -, e0, e1⟩ := idx_facts t
    refine ⟨t, flush0_5 t, ?_⟩
    rw [mem_blk]
    intro a
    match a with
    | ⟨0, _⟩ => show win0_5.index t (0 : Fin 2) * 4000 ≤ (i 0).val ∧ (i 0).val < win0_5.index t (0 : Fin 2) * 4000 + 4000; rw [e0]; show (i 0).val / 4000 * 4000 ≤ (i 0).val ∧ (i 0).val < (i 0).val / 4000 * 4000 + 4000; omega
    | ⟨1, _⟩ => show win0_5.index t (1 : Fin 2) * 64 ≤ (i 1).val ∧ (i 1).val < win0_5.index t (1 : Fin 2) * 64 + 64; rw [e1]; omega

end Cert.KernelIdeal.Hand.W5

end
-- ==== Proof.NeighTic.lean ====
/-
  The neighbour projection of the first feature matrix for the acoustic edges, as the first region leaves it.

  The same 50 blocks of 4000 rows as the self projection, against the neighbour weight matrix; the product is rounded
  to the narrow float format before it is stored, which at exact arithmetic changes nothing.  Entry (p, q) of block t is
  Σₖ x(4000·t + p, k)·W(k, q), entry (4000·t + p, q) of the one product x·W; the blocks tile the array, so after the
  region the array holds x·W.
-/
import proofs.«120549_j69990787056126_2_alg».proof.Proof.Gen.KernelIdeal.Frame
import proofs.«120549_j69990787056126_2_alg».proof.Proof.LibDotEntry
import proofs.«120549_j69990787056126_2_alg».proof.Proof.LibMatDims
import proofs.«120549_j69990787056126_2_alg».proof.Proof.Spec
import Idealize.ShloMosaic.Lib.Pipeline.Value
import Idealize.ShloMosaic.Lib.ValueIdx

set_option maxRecDepth 16384

noncomputable section

namespace Cert.KernelIdeal.Hand.W4

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The body's product of a 4000×256 block by the weight matrix, rounded to the narrow format, read at entry (p, q): a change
    of float format is the identity at exact arithmetic, and a product into a zero accumulator is the plain sum over the
    contracted axis. -/
theorem pay_apply (x : Vec Ideal S4000x256 .f32) (W : Vec Ideal S256x64 .f32) (p : Fin 4000) (q : Fin 64) :
    k0_pay2 x W (ix2 p q) = ∑ k : Fin 256, x (ix2 p k) * W (ix2 k q) := by
  unfold k0_pay2 k0_pay1
  exact Cert.Lib.DotEntry.matmul_zero_ix2 dot_S4000x256_S256x64_S4000x64_1_0_0_1_n_n
    (Cert.Lib.MatDims.contr_rank _ rfl) (Cert.Lib.MatDims.contr_size _ rfl)
    (Cert.Lib.MatDims.lhs_row _ rfl rfl) (Cert.Lib.MatDims.lhs_col _ rfl)
    (Cert.Lib.MatDims.rhs_row _ rfl rfl) (Cert.Lib.MatDims.rhs_col _ rfl rfl rfl rfl) _ _ p q

/-- Where the printed index maps put block t: the row window and the output window at block row t, block column 0;
    the weight window always at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_4.index t (0 : Fin 2) = t.val ∧ win0_4.index t (1 : Fin 2) = 0 :=
  (by decide +kernel : ∀ t : Fin grid0.N, _)

/-- Row p, column k of the feature block at point t is row 4000·t + p, column k of the feature matrix. -/
theorem xblk_apply (c : Dev nD) (t : Fin cfg0.N) (p : Fin 4000) (k : Fin 256) (r : Fin 200000)
    (hr : r.val = 4000 * t.val + p.val) :
    (iblk0 (V0 m ρ) c 0 t : Vec Ideal S4000x256 .f32) (ix2 p k)
      = (m ((c : Thread nD τ).loc main_arg0) : S200000x256.Idx → EReal) (ix2 r k) := by
  obtain ⟨e0, e1, -⟩ := idx_facts t
  unfold iblk0
  rw [View.read_apply]
  show m ((c : Thread nD τ).loc main_arg0) _ = m ((c : Thread nD τ).loc main_arg0) _
  congr 1
  funext a
  apply Fin.ext
  match a with
  | ⟨0, _⟩ => show win0_0.index t 0 * 4000 + 1 * p.val = r.val; rw [e0, hr]; omega
  | ⟨1, _⟩ => show win0_0.index t 1 * 256 + 1 * k.val = k.val; rw [e1]; omega

/-- The weight window's one block is the weight matrix. -/
theorem wblk_apply (c : Dev nD) (t : Fin cfg0.N) (k : Fin 256) (q : Fin 64) :
    (iblk0 (V0 m ρ) c 1 t : Vec Ideal S256x64 .f32) (ix2 k q)
      = (m ((c : Thread nD τ).loc main_arg9) : S256x64.Idx → EReal) (ix2 k q) := by
  obtain ⟨-, -, e0, e1, -⟩ := idx_facts t
  unfold iblk0
  rw [View.read_apply]
  show m ((c : Thread nD τ).loc main_arg9) _ = m ((c : Thread nD τ).loc main_arg9) _
  congr 1
  funext a
  apply Fin.ext
  match a with
  | ⟨0, _⟩ => show win0_1.index t 0 * 256 + 1 * k.val = k.val; rw [e0]; omega
  | ⟨1, _⟩ => show win0_1.index t 1 * 64 + 1 * q.val = q.val; rw [e1]; omega

/-- The whole product x·W of the launch contents of the feature matrix and the weight matrix. -/
abbrev G (c : Dev nD) : S200000x64.Idx → EReal :=
  Cert.Spec.proj (n := 200000) (m ((c : Thread nD τ).loc main_arg0)) (m ((c : Thread nD τ).loc main_arg9))

/-- What point t writes back is block t of the whole product. -/
theorem flushed_eq (c : Dev nD) (t : Fin cfg0.N) :
    (dat0 (V0 m ρ) c).flushed 4 t = ((cfg0.win 4).blk t).view.read (Elt Ideal) (G m c) := by
  show (cfg0.win 4).cut (grid0.coords t) ((dat0 (V0 m ρ) c).after 4 t) = _
  rw [after0_4]
  unfold out0_4
  rw [View.canon_unit_zero hz]
  simp only [View.ld_unit_zero (S := S4000x256) hz, View.ld_unit_zero (S := S256x64) hz]
  obtain ⟨-, -, -, -, e0, e1⟩ := idx_facts t
  have hN : cfg0.N = 50 := N_0
  have ht : t.val < 50 := hN ▸ t.isLt
  funext j
  obtain ⟨p, q, rfl⟩ : ∃ (p : Fin 4000) (q : Fin 64), j = ix2 p q := ⟨j 0, j 1, eq_ix2 j⟩
  show k0_pay2 (iblk0 (V0 m ρ) c 0 t) (iblk0 (V0 m ρ) c 1 t) (ix2 p q) = G m c (((cfg0.win 4).blk t).view.emb (ix2 p q))
  refine (pay_apply _ _ p q).trans ?_
  refine (Finset.sum_congr rfl fun k _ => ?_).trans
    (Cert.Spec.proj_apply (n := 200000) _ _ _ ⟨4000 * t.val + p.val, by have := p.isLt; omega⟩ q ?_ ?_).symm
  · rw [xblk_apply m ρ c t p k ⟨4000 * t.val + p.val, by have := p.isLt; omega⟩ rfl, wblk_apply m ρ c t k q]
  · show win0_4.index t 0 * 4000 + 1 * p.val = 4000 * t.val + p.val; rw [e0]; omega
  · show win0_4.index t 1 * 64 + 1 * q.val = q.val; rw [e1]; omega

/-- An index of the array is in point t's block iff each coordinate is in the block's range on its axis. -/
theorem mem_blk (t : Fin cfg0.N) (i : S200000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_call0_v0_0).slice (win0_4.rect t)).set ↔ _
  rw [View.set_slice_whole, Rect.mem_set_unit]
  exact Iff.rfl

/-- After the region the output array holds the whole product: row r lies in block r / 4000. -/
theorem final (c : Dev nD) : (dat0 (V0 m ρ) c).arrAt 4 cfg0.N = G m c :=
  (dat0 (V0 m ρ) c).arrAt_eq_of_cover 4 (G m c) (fun t _ => flushed_eq m ρ c t) fun i => by
    have hN : cfg0.N = 50 := N_0
    have h0 : (i 0).val < 200000 := (i 0).isLt
    have h1 : (i 1).val < 64 := (i 1).isLt
    let t : Fin cfg0.N := ⟨(i 0).val / 4000, by omega⟩
    obtain ⟨-, -, -, -, e0, e1⟩ := idx_facts t
    refine ⟨t, flush0_4 t, ?_⟩
    rw [mem_blk]
    intro a
    match a with
    | ⟨0, _⟩ => show win0_4.index t (0 : Fin 2) * 4000 ≤ (i 0).val ∧ (i 0).val < win0_4.index t (0 : Fin 2) * 4000 + 4000; rw [e0]; show (i 0).val / 4000 * 4000 ≤ (i 0).val ∧ (i 0).val < (i 0).val / 4000 * 4000 + 4000; omega
    | ⟨1, _⟩ => show win0_4.index t (1 : Fin 2) * 64 ≤ (i 1).val ∧ (i 1).val < win0_4.index t (1 : Fin 2) * 64 + 64; rw [e1]; omega

end Cert.KernelIdeal.Hand.W4

end
-- ==== Proof.NeighRel.lean ====
/-
  The neighbour projection of the first feature matrix for the edges into the word rows, as the first region leaves it.

  The same 50 blocks of 4000 rows, against the third weight matrix, rounded to the narrow float format before the
  store (the identity at exact arithmetic).  Entry (p, q) of block t is Σₖ x(4000·t + p, k)·W(k, q), entry
  (4000·t + p, q) of the one product x·W; the blocks tile the array, so after the region the array holds x·W.
-/
import proofs.«120549_j69990787056126_2_alg».proof.Proof.Gen.KernelIdeal.Frame
import proofs.«120549_j69990787056126_2_alg».proof.Proof.LibDotEntry
import proofs.«120549_j69990787056126_2_alg».proof.Proof.LibMatDims
import proofs.«120549_j69990787056126_2_alg».proof.Proof.Spec
import Idealize.ShloMosaic.Lib.Pipeline.Value
import Idealize.ShloMosaic.Lib.ValueIdx

set_option maxRecDepth 16384

noncomputable section

namespace Cert.KernelIdeal.Hand.W6

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The body's product of a 4000×256 block by the weight matrix, rounded to the narrow format, read at entry (p, q): a change
    of float format is the identity at exact arithmetic, and a product into a zero accumulator is the plain sum over the
    contracted axis. -/
theorem pay_apply (x : Vec Ideal S4000x256 .f32) (W : Vec Ideal S256x64 .f32) (p : Fin 4000) (q : Fin 64) :
    k0_pay4 x W (ix2 p q) = ∑ k : Fin 256, x (ix2 p k) * W (ix2 k q) := by
  unfold k0_pay4 k0_pay1
  exact Cert.Lib.DotEntry.matmul_zero_ix2 dot_S4000x256_S256x64_S4000x64_1_0_0_1_n_n
    (Cert.Lib.MatDims.contr_rank _ rfl) (Cert.Lib.MatDims.contr_size _ rfl)
    (Cert.Lib.MatDims.lhs_row _ rfl rfl) (Cert.Lib.MatDims.lhs_col _ rfl)
    (Cert.Lib.MatDims.rhs_row _ rfl rfl) (Cert.Lib.MatDims.rhs_col _ rfl rfl rfl rfl) _ _ p q

/-- Where the printed index maps put block t: the row window and the output window at block row t, block column 0;
    the weight window always at its one block. -/
theorem idx_facts : ∀ t : Fin cfg0.N,
    win0_0.index t (0 : Fin 2) = t.val ∧ win0_0.index t (1 : Fin 2) = 0
    ∧ win0_3.index t (0 : Fin 2) = 0 ∧ win0_3.index t (1 : Fin 2) = 0
    ∧ win0_6.index t (0 : Fin 2) = t.val ∧ win0_6.index t (1 : Fin 2) = 0 :=
  (by decide +kernel : ∀ t : Fin grid0.N, _)

/-- Row p, column k of the feature block at point t is row 4000·t + p, column k of the feature matrix. -/
theorem xblk_apply (c : Dev nD) (t : Fin cfg0.N) (p : Fin 4000) (k : Fin 256) (r : Fin 200000)
    (hr : r.val = 4000 * t.val + p.val) :
    (iblk0 (V0 m ρ) c 0 t : Vec Ideal S4000x256 .f32) (ix2 p k)
      = (m ((c : Thread nD τ).loc main_arg0) : S200000x256.Idx → EReal) (ix2 r k) := by
  obtain ⟨e0, e1, -⟩ := idx_facts t
  unfold iblk0
  rw [View.read_apply]
  show m ((c : Thread nD τ).loc main_arg0) _ = m ((c : Thread nD τ).loc main_arg0) _
  congr 1
  funext a
  apply Fin.ext
  match a with
  | ⟨0, _⟩ => show win0_0.index t 0 * 4000 + 1 * p.val = r.val; rw [e0, hr]; omega
  | ⟨1, _⟩ => show win0_0.index t 1 * 256 + 1 * k.val = k.val; rw [e1]; omega

/-- The weight window's one block is the weight matrix. -/
theorem wblk_apply (c : Dev nD) (t : Fin cfg0.N) (k : Fin 256) (q : Fin 64) :
    (iblk0 (V0 m ρ) c 3 t : Vec Ideal S256x64 .f32) (ix2 k q)
      = (m ((c : Thread nD τ).loc main_arg12) : S256x64.Idx → EReal) (ix2 k q) := by
  obtain ⟨-, -, e0, e1, -⟩ := idx_facts t
  unfold iblk0
  rw [View.read_apply]
  show m ((c : Thread nD τ).loc main_arg12) _ = m ((c : Thread nD τ).loc main_arg12) _
  congr 1
  funext a
  apply Fin.ext
  match a with
  | ⟨0, _⟩ => show win0_3.index t 0 * 256 + 1 * k.val = k.val; rw [e0]; omega
  | ⟨1, _⟩ => show win0_3.index t 1 * 64 + 1 * q.val = q.val; rw [e1]; omega

/-- The whole product x·W of the launch contents of the feature matrix and the weight matrix. -/
abbrev G (c : Dev nD) : S200000x64.Idx → EReal :=
  Cert.Spec.proj (n := 200000) (m ((c : Thread nD τ).loc main_arg0)) (m ((c : Thread nD τ).loc main_arg12))

/-- What point t writes back is block t of the whole product. -/
theorem flushed_eq (c : Dev nD) (t : Fin cfg0.N) :
    (dat0 (V0 m ρ) c).flushed 6 t = ((cfg0.win 6).blk t).view.read (Elt Ideal) (G m c) := by
  show (cfg0.win 6).cut (grid0.coords t) ((dat0 (V0 m ρ) c).after 6 t) = _
  rw [after0_6]
  unfold out0_6
  rw [View.canon_unit_zero hz]
  simp only [View.ld_unit_zero (S := S4000x256) hz, View.ld_unit_zero (S := S256x64) hz]
  obtain ⟨-, -, -, -, e0, e1⟩ := idx_facts t
  have hN : cfg0.N = 50 := N_0
  have ht : t.val < 50 := hN ▸ t.isLt
  funext j
  obtain ⟨p, q, rfl⟩ : ∃ (p : Fin 4000) (q : Fin 64), j = ix2 p q := ⟨j 0, j 1, eq_ix2 j⟩
  show k0_pay4 (iblk0 (V0 m ρ) c 0 t) (iblk0 (V0 m ρ) c 3 t) (ix2 p q) = G m c (((cfg0.win 6).blk t).view.emb (ix2 p q))
  refine (pay_apply _ _ p q).trans ?_
  refine (Finset.sum_congr rfl fun k _ => ?_).trans
    (Cert.Spec.proj_apply (n := 200000) _ _ _ ⟨4000 * t.val + p.val, by have := p.isLt; omega⟩ q ?_ ?_).symm
  · rw [xblk_apply m ρ c t p k ⟨4000 * t.val + p.val, by have := p.isLt; omega⟩ rfl, wblk_apply m ρ c t k q]
  · show win0_6.index t 0 * 4000 + 1 * p.val = 4000 * t.val + p.val; rw [e0]; omega
  · show win0_6.index t 1 * 64 + 1 * q.val = q.val; rw [e1]; omega

/-- An index of the array is in point t's block iff each coordinate is in the block's range on its axis. -/
theorem mem_blk (t : Fin cfg0.N) (i : S200000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_call0_v0_2).slice (win0_6.rect t)).set ↔ _
  rw [View.set_slice_whole, Rect.mem_set_unit]
  exact Iff.rfl

/-- After the region the output array holds the whole product: row r lies in block r / 4000. -/
theorem final (c : Dev nD) : (dat0 (V0 m ρ) c).arrAt 6 cfg0.N = G m c :=
  (dat0 (V0 m ρ) c).arrAt_eq_of_cover 6 (G m c) (fun t _ => flushed_eq m ρ c t) fun i => by
    have hN : cfg0.N = 50 := N_0
    have h0 : (i 0).val < 200000 := (i 0).isLt
    have h1 : (i 1).val < 64 := (i 1).isLt
    let t : Fin cfg0.N := ⟨(i 0).val / 4000, by omega⟩
    obtain ⟨-, -, -, -, e0, e1⟩ := idx_facts t
    refine ⟨t, flush0_6 t, ?_⟩
    rw [mem_blk]
    intro a
    match a with
    | ⟨0, _⟩ => show win0_6.index t (0 : Fin 2) * 4000 ≤ (i 0).val ∧ (i 0).val < win0_6.index t (0 : Fin 2) * 4000 + 4000; rw [e0]; show (i 0).val / 4000 * 4000 ≤ (i 0).val ∧ (i 0).val < (i 0).val / 4000 * 4000 + 4000; omega
    | ⟨1, _⟩ => show win0_6.index t (1 : Fin 2) * 64 ≤ (i 1).val ∧ (i 1).val < win0_6.index t (1 : Fin 2) * 64 + 64; rw [e1]; omega

end Cert.KernelIdeal.Hand.W6

end
-- ==== Proof.SelfRel.lean ====
/-
  The self projection of the word features, as the second region leaves it in its array.

  The region walks the 50000 rows of the word features in 10 blocks of 5000 rows; at block t it multiplies rows
  5000·t … 5000·t + 4999 by the whole 256×64 weight matrix into a zero accumulator and writes the product back as
  block t of the output array.  Both inputs are buffers the first region does not write, so the second region finds
  them as launched.  Entry (p, q) of block t is Σₖ x(5000·t + p, k)·W(k, q), entry (5000·t + p, q) of the one product
  x·W; the 10 blocks tile the array, so after the region the array holds x·W.
-/
import proofs.«120549_j69990787056126_2_alg».proof.Proof.Gen.KernelIdeal.Frame
import proofs.«120549_j69990787056126_2_alg».proof.Proof.LibDotEntry
import proofs.«120549_j69990787056126_2_alg».proof.Proof.LibMatDims
import proofs.«120549_j69990787056126_2_alg».proof.Proof.Spec
import Idealize.ShloMosaic.Lib.Pipeline.Value
import Idealize.ShloMosaic.Lib.ValueIdx

set_option maxRecDepth 16384

noncomputable section

namespace Cert.KernelIdeal.Hand.R1

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The body's product of a 5000×256 block by the weight matrix, read at entry (p, q): a change of float format is the
    identity at exact arithmetic, and a product into a zero accumulator is the plain sum over the contracted axis. -/
theorem pay_apply (x : Vec Ideal S5000x256 .f32) (W : Vec Ideal S256x64 .f32) (p : Fin 5000) (q : Fin 64) :
    k1_pay1 x W (ix2 p q) = ∑ k : Fin 256, x (ix2 p k) * W (ix2 k q) := by
  unfold k1_pay1
  exact Cert.Lib.DotEntry.matmul_zero_ix2 dot_S5000x256_S256x64_S5000x64_1_0_0_1_n_n
    (Cert.Lib.MatDims.contr_rank _ rfl) (Cert.Lib.MatDims.contr_size _ rfl)
    (Cert.Lib.MatDims.lhs_row _ rfl rfl) (Cert.Lib.MatDims.lhs_col _ rfl)
    (Cert.Lib.MatDims.rhs_row _ rfl rfl) (Cert.Lib.MatDims.rhs_col _ rfl rfl rfl rfl) _ _ p q

/-- Where the printed index maps put block t: the row window and the output window at block row t, block column 0;
    the weight window always at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first region writes neither the word features nor this weight matrix: the second region finds them as launched. -/
theorem entry_x (c : Dev nD) : V1 m ρ c (Pipeline.arrRef spec1 0) = m ((c : Thread nD τ).loc main_arg1) :=
  W1_of_ne m ρ c main_arg1 (by decide)
theorem entry_w (c : Dev nD) : V1 m ρ c (Pipeline.arrRef spec1 1) = m ((c : Thread nD τ).loc main_arg11) :=
  W1_of_ne m ρ c main_arg11 (by decide)

/-- Row p, column k of the feature block at point t is row 5000·t + p, column k of the feature matrix. -/
theorem xblk_apply (c : Dev nD) (t : Fin cfg1.N) (p : Fin 5000) (k : Fin 256) (r : Fin 50000)
    (hr : r.val = 5000 * t.val + p.val) :
    (iblk1 (V1 m ρ) c 0 t : Vec Ideal S5000x256 .f32) (ix2 p k)
      = (m ((c : Thread nD τ).loc main_arg1) : S50000x256.Idx → EReal) (ix2 r k) := by
  obtain ⟨e0, e1, -⟩ := idx_facts t
  unfold iblk1
  rw [View.read_apply, entry_x m ρ c]
  show (m ((c : Thread nD τ).loc main_arg1) : S50000x256.Idx → EReal) _ = (m ((c : Thread nD τ).loc main_arg1) : S50000x256.Idx → EReal) _
  congr 1
  funext a
  apply Fin.ext
  match a with
  | ⟨0, _⟩ => show win1_0.index t 0 * 5000 + 1 * p.val = r.val; rw [e0, hr]; omega
  | ⟨1, _⟩ => show win1_0.index t 1 * 256 + 1 * k.val = k.val; rw [e1]; omega

/-- The weight window's one block is the weight matrix. -/
theorem wblk_apply (c : Dev nD) (t : Fin cfg1.N) (k : Fin 256) (q : Fin 64) :
    (iblk1 (V1 m ρ) c 1 t : Vec Ideal S256x64 .f32) (ix2 k q)
      = (m ((c : Thread nD τ).loc main_arg11) : S256x64.Idx → EReal) (ix2 k q) := by
  obtain ⟨-, -, e0, e1, -⟩ := idx_facts t
  unfold iblk1
  rw [View.read_apply, entry_w m ρ c]
  show (m ((c : Thread nD τ).loc main_arg11) : S256x64.Idx → EReal) _ = (m ((c : Thread nD τ).loc main_arg11) : S256x64.Idx → EReal) _
  congr 1
  funext a
  apply Fin.ext
  match a with
  | ⟨0, _⟩ => show win1_1.index t 0 * 256 + 1 * k.val = k.val; rw [e0]; omega
  | ⟨1, _⟩ => show win1_1.index t 1 * 64 + 1 * q.val = q.val; rw [e1]; omega

/-- The whole product x·W of the launch contents of the feature matrix and the weight matrix. -/
abbrev G (c : Dev nD) : S50000x64.Idx → EReal :=
  Cert.Spec.proj (n := 50000) (m ((c : Thread nD τ).loc main_arg1)) (m ((c : Thread nD τ).loc main_arg11))

/-- What point t writes back is block t of the whole product. -/
theorem flushed_eq (c : Dev nD) (t : Fin cfg1.N) :
    (dat1 (V1 m ρ) c).flushed 2 t = ((cfg1.win 2).blk t).view.read (Elt Ideal) (G m c) := by
  show (cfg1.win 2).cut (grid1.coords t) ((dat1 (V1 m ρ) c).after 2 t) = _
  rw [after1_2]
  unfold out1_2
  rw [View.canon_unit_zero hz]
  simp only [View.ld_unit_zero (S := S5000x256) hz, View.ld_unit_zero (S := S256x64) hz]
  obtain ⟨-, -, -, -, e0, e1⟩ := idx_facts t
  have hN : cfg1.N = 10 := N_1
  have ht : t.val < 10 := hN ▸ t.isLt
  funext j
  obtain ⟨p, q, rfl⟩ : ∃ (p : Fin 5000) (q : Fin 64), j = ix2 p q := ⟨j 0, j 1, eq_ix2 j⟩
  show k1_pay1 (iblk1 (V1 m ρ) c 0 t) (iblk1 (V1 m ρ) c 1 t) (ix2 p q) = G m c (((cfg1.win 2).blk t).view.emb (ix2 p q))
  refine (pay_apply _ _ p q).trans ?_
  refine (Finset.sum_congr rfl fun k _ => ?_).trans
    (Cert.Spec.proj_apply (n := 50000) _ _ _ ⟨5000 * t.val + p.val, by have := p.isLt; omega⟩ q ?_ ?_).symm
  · rw [xblk_apply m ρ c t p k ⟨5000 * t.val + p.val, by have := p.isLt; omega⟩ rfl, wblk_apply m ρ c t k q]
  · show win1_2.index t 0 * 5000 + 1 * p.val = 5000 * t.val + p.val; rw [e0]; omega
  · show win1_2.index t 1 * 64 + 1 * q.val = q.val; rw [e1]; omega

/-- An index of the array is in point t's block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_call0_v1).slice (win1_2.rect t)).set ↔ _
  rw [View.set_slice_whole, Rect.mem_set_unit]
  exact Iff.rfl

/-- After the region the output array holds the whole product: row r lies in block r / 5000. -/
theorem final (c : Dev nD) : (dat1 (V1 m ρ) c).arrAt 2 cfg1.N = G m c :=
  (dat1 (V1 m ρ) c).arrAt_eq_of_cover 2 (G m c) (fun t _ => flushed_eq m ρ c t) fun i => by
    have hN : cfg1.N = 10 := N_1
    have h0 : (i 0).val < 50000 := (i 0).isLt
    have h1 : (i 1).val < 64 := (i 1).isLt
    let t : Fin cfg1.N := ⟨(i 0).val / 5000, by omega⟩
    obtain ⟨-, -, -, -, e0, e1⟩ := idx_facts t
    refine ⟨t, flush1_2 t, ?_⟩
    rw [mem_blk]
    intro a
    match a with
    | ⟨0, _⟩ => show win1_2.index t (0 : Fin 2) * 5000 ≤ (i 0).val ∧ (i 0).val < win1_2.index t (0 : Fin 2) * 5000 + 5000; rw [e0]; show (i 0).val / 5000 * 5000 ≤ (i 0).val ∧ (i 0).val < (i 0).val / 5000 * 5000 + 5000; omega
    | ⟨1, _⟩ => show win1_2.index t (1 : Fin 2) * 64 ≤ (i 1).val ∧ (i 1).val < win1_2.index t (1 : Fin 2) * 64 + 64; rw [e1]; omega

end Cert.KernelIdeal.Hand.R1

end
-- ==== Proof.KernelValue.lean ====
/-
  The idealized kernel's two results as the shared functions of the four dense projections.

  When the host line starts, the three output arrays of the first region hold the products of the acoustic features
  with the three weight matrices and the output array of the second region holds the product of the word features with
  its weight matrix; the index, weight and bias arrays are as launched.  The host line then computes the acoustic
  output and, with its four terms added from the left, the word output; addition of extended reals is associative, so
  the latter is the word output as the reference associates it.
-/
import proofs.«120549_j69990787056126_2_alg».proof.Proof.KernelRun
import proofs.«120549_j69990787056126_2_alg».proof.Proof.KernelHost
import proofs.«120549_j69990787056126_2_alg».proof.Proof.SelfTic
import proofs.«120549_j69990787056126_2_alg».proof.Proof.NeighTic
import proofs.«120549_j69990787056126_2_alg».proof.Proof.NeighRel
import proofs.«120549_j69990787056126_2_alg».proof.Proof.SelfRel

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## What the host line finds in the regions' output arrays -/

/-- The acoustic self projection: written by the first region, untouched by the second. -/
theorem W2_self_tic (c : Dev nD) : W2 m ρ c (Proc.devRef .tc main_call0_v0_1) = W5.G m c :=
  (W2_of_ne m ρ c main_call0_v0_1 (by decide)).trans ((W1_arr m ρ c 5).trans (W5.final m ρ c))

/-- The neighbour projection for the acoustic edges. -/
theorem W2_neigh_tic (c : Dev nD) : W2 m ρ c (Proc.devRef .tc main_call0_v0_0) = W4.G m c :=
  (W2_of_ne m ρ c main_call0_v0_0 (by decide)).trans ((W1_arr m ρ c 4).trans (W4.final m ρ c))

/-- The neighbour projection for the edges into the word rows. -/
theorem W2_neigh_rel (c : Dev nD) : W2 m ρ c (Proc.devRef .tc main_call0_v0_2) = W6.G m c :=
  (W2_of_ne m ρ c main_call0_v0_2 (by decide)).trans ((W1_arr m ρ c 6).trans (W6.final m ρ c))

/-- The word self projection: written by the second region. -/
theorem W2_self_rel (c : Dev nD) : W2 m ρ c (Proc.devRef .tc main_call0_v1) = R1.G m c :=
  (W2_arr m ρ c 2).trans (R1.final m ρ c)

/-! ## The two results -/

/-- The first result is the acoustic output of x_ac·W_self_tic and x_ac·W_neigh_tic. -/
theorem kernel_out0 (c : Dev nD) :
    W3 m ρ c (Proc.devRef .tc main_v0_0)
      = Cert.Tail.outAc (Cert.Spec.proj (n := 200000) (m ((c : Thread nD τ).loc main_arg0)) (m ((c : Thread nD τ).loc main_arg8))) (Cert.Spec.proj (n := 200000) (m ((c : Thread nD τ).loc main_arg0)) (m ((c : Thread nD τ).loc main_arg9)))
          (m ((c : Thread nD τ).loc main_arg2)) (m ((c : Thread nD τ).loc main_arg3)) (m ((c : Thread nD τ).loc main_arg4)) (m ((c : Thread nD τ).loc main_arg10)) :=
  (host_out0 m ρ c).trans (by
    rw [W2_self_tic, W2_neigh_tic, W2_arg2, W2_arg3, W2_arg4, W2_arg10])

/-- The second result is the word output of x_w·W_self_rel and x_ac·W_neigh_rel. -/
theorem kernel_out1 (c : Dev nD) :
    W3 m ρ c (Proc.devRef .tc main_v0_1)
      = Cert.Tail.outW (Cert.Spec.proj (n := 50000) (m ((c : Thread nD τ).loc main_arg1)) (m ((c : Thread nD τ).loc main_arg11))) (Cert.Spec.proj (n := 200000) (m ((c : Thread nD τ).loc main_arg0)) (m ((c : Thread nD τ).loc main_arg12)))
          (m ((c : Thread nD τ).loc main_arg1)) (m ((c : Thread nD τ).loc main_arg5)) (m ((c : Thread nD τ).loc main_arg6)) (m ((c : Thread nD τ).loc main_arg7)) (m ((c : Thread nD τ).loc main_arg13)) :=
  ((host_out1 m ρ c).trans (by
    rw [W2_self_rel, W2_neigh_rel, W2_arg1, W2_arg5, W2_arg6, W2_arg7, W2_arg13])).trans
    (Cert.Tail.outWLeft_eq _ _ _ _ _ _ _)

/-- The kernel program's run with its two results stated through the shared functions; the arguments end as launched. -/
theorem run_tail : θ_run defs (onTc (τ := τ) (main (F := Ideal))) ⟨m, fun _ => 0, ρ⟩ fun r => ∀ c : Dev nD,
      r.2.mem ((c.tc : Thread nD τ).loc main_v0_0)
        = Cert.Tail.outAc (Cert.Spec.proj (n := 200000) (m ((c.tc : Thread nD τ).loc main_arg0)) (m ((c.tc : Thread nD τ).loc main_arg8))) (Cert.Spec.proj (n := 200000) (m ((c.tc : Thread nD τ).loc main_arg0)) (m ((c.tc : Thread nD τ).loc main_arg9)))
            (m ((c.tc : Thread nD τ).loc main_arg2)) (m ((c.tc : Thread nD τ).loc main_arg3)) (m ((c.tc : Thread nD τ).loc main_arg4)) (m ((c.tc : Thread nD τ).loc main_arg10))
      ∧ r.2.mem ((c.tc : Thread nD τ).loc main_v0_1)
        = Cert.Tail.outW (Cert.Spec.proj (n := 50000) (m ((c.tc : Thread nD τ).loc main_arg1)) (m ((c.tc : Thread nD τ).loc main_arg11))) (Cert.Spec.proj (n := 200000) (m ((c.tc : Thread nD τ).loc main_arg0)) (m ((c.tc : Thread nD τ).loc main_arg12)))
            (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (kernel_out0 m ρ c), (h c).2.1.trans (kernel_out1 m ρ c), (h c).2.2⟩)
    (run_results m ρ)

end Cert.KernelIdeal.Hand

end
-- ==== Proof.RefBridge.lean ====
/-
  The reference program's two results as the shared functions of the four dense projections.

  The reference computes each projection by one host matrix product, whose entry (p, q) at exact arithmetic is the sum
  over the contracted axis of row p of the features against column q of the weights: the function `Cert.Spec.proj`.
  What it does with the four products afterwards is, operation for operation, `Cert.Tail.outAc` and `Cert.Tail.outW`.
-/
import proofs.«120549_j69990787056126_2_alg».proof.Proof.RefRun
import proofs.«120549_j69990787056126_2_alg».proof.Proof.Tail
import proofs.«120549_j69990787056126_2_alg».proof.Proof.Spec
import proofs.«120549_j69990787056126_2_alg».proof.Proof.LibDotEntry
import proofs.«120549_j69990787056126_2_alg».proof.Proof.LibMatDims

set_option maxRecDepth 16384

noncomputable section

namespace Cert.ReferenceIdeal.Hand

open Idealize.ShloMosaic Idealize.ShloMosaic.TcCoe Idealize.SL.Sem Idealize.ShloMosaic.ValueIdx
open Cert.ReferenceIdeal Cert.ReferenceIdeal.Gen

/-- The host's product of the 200000×256 features by a 256×64 weight matrix is the projection, entry by entry. -/
theorem dot_big (x : FVec Ideal S200000x256 .f32) (W : FVec Ideal S256x64 .f32) :
    Host.dotGeneral (F := Ideal) dot_S200000x256_S256x64_S200000x64_1_0_0_1_n_n none x W = Cert.Spec.proj (n := 200000) x W := by
  funext i
  obtain ⟨p, q, rfl⟩ : ∃ (p : Fin 200000) (q : Fin 64), i = ix2 p q := ⟨i 0, i 1, eq_ix2 i⟩
  rw [Cert.Spec.proj_apply (n := 200000) x W (ix2 p q) p q rfl rfl]
  exact Cert.Lib.DotEntry.dotGeneral_ix2 dot_S200000x256_S256x64_S200000x64_1_0_0_1_n_n
    (Cert.Lib.MatDims.contr_rank _ rfl) (Cert.Lib.MatDims.contr_size _ rfl)
    (Cert.Lib.MatDims.lhs_row _ rfl rfl) (Cert.Lib.MatDims.lhs_col _ rfl)
    (Cert.Lib.MatDims.rhs_row _ rfl rfl) (Cert.Lib.MatDims.rhs_col _ rfl rfl rfl rfl) x W p q

/-- The same for the 50000×256 word features. -/
theorem dot_small (x : FVec Ideal S50000x256 .f32) (W : FVec Ideal S256x64 .f32) :
    Host.dotGeneral (F := Ideal) dot_S50000x256_S256x64_S50000x64_1_0_0_1_n_n none x W = Cert.Spec.proj (n := 50000) x W := by
  funext i
  obtain ⟨p, q, rfl⟩ : ∃ (p : Fin 50000) (q : Fin 64), i = ix2 p q := ⟨i 0, i 1, eq_ix2 i⟩
  rw [Cert.Spec.proj_apply (n := 50000) x W (ix2 p q) p q rfl rfl]
  exact Cert.Lib.DotEntry.dotGeneral_ix2 dot_S50000x256_S256x64_S50000x64_1_0_0_1_n_n
    (Cert.Lib.MatDims.contr_rank _ rfl) (Cert.Lib.MatDims.contr_size _ rfl)
    (Cert.Lib.MatDims.lhs_row _ rfl rfl) (Cert.Lib.MatDims.lhs_col _ rfl)
    (Cert.Lib.MatDims.rhs_row _ rfl rfl) (Cert.Lib.MatDims.rhs_col _ rfl rfl rfl rfl) x W p q

variable (m : (ℓ : Loc nD τ sig) → Buf (Elt Ideal) ℓ) (ρ : Dev nD → PrngReg)

/-- The reference's run with its two results stated through the shared functions: the first is the acoustic output of
    the self projection x_ac·W_self_tic and the neighbour projection x_ac·W_neigh_tic, the second the word output of
    x_w·W_self_rel and x_ac·W_neigh_rel; the arguments end as launched. -/
theorem run_tail : θ_run defs (onTc (τ := τ) (main (F := Ideal))) ⟨m, fun _ => 0, ρ⟩ fun r => ∀ c : Dev nD,
      r.2.mem ((c.tc : Thread nD τ).loc main_v31)
        = Cert.Tail.outAc (Cert.Spec.proj (n := 200000) (m ((c.tc : Thread nD τ).loc main_arg0)) (m ((c.tc : Thread nD τ).loc main_arg8))) (Cert.Spec.proj (n := 200000) (m ((c.tc : Thread nD τ).loc main_arg0)) (m ((c.tc : Thread nD τ).loc main_arg9)))
            (m ((c.tc : Thread nD τ).loc main_arg2)) (m ((c.tc : Thread nD τ).loc main_arg3)) (m ((c.tc : Thread nD τ).loc main_arg4)) (m ((c.tc : Thread nD τ).loc main_arg10))
      ∧ r.2.mem ((c.tc : Thread nD τ).loc main_v67)
        = Cert.Tail.outW (Cert.Spec.proj (n := 50000) (m ((c.tc : Thread nD τ).loc main_arg1)) (m ((c.tc : Thread nD τ).loc main_arg11))) (Cert.Spec.proj (n := 200000) (m ((c.tc : Thread nD τ).loc main_arg0)) (m ((c.tc : Thread nD τ).loc main_arg12)))
            (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h c).1.trans (by rw [← dot_big, ← dot_big]; rfl),
      (h c).2.1.trans (by rw [← dot_small, ← dot_big]; rfl), (h c).2.2⟩)
    (Cert.ReferenceIdeal.ValueP.run (F := Ideal) m ρ)

end Cert.ReferenceIdeal.Hand

end
-- ==== Proof.lean ====
/-
  The certificate of a heterogeneous mean-aggregation graph layer against its plain reference.

  The kernel program computes four dense projections in two pipelined regions — the acoustic features against three
  256×64 weight matrices in 50 row blocks, the word features against a fourth in 10 row blocks — and the reference
  computes the same four products by host matrix products.  At exact arithmetic each is the one function
  (x·W)(p, q) = Σₖ x(p, k)·W(k, q) of the arguments, whatever the tiling and the float formats on the way.
  From the four products both programs run the same host operations: per edge type, gather the source rows, scale by
  the edge weight, sum into the target rows, divide by the clamped degree where the degree is positive; then add the
  self projection and the bias row (first result), or the head of the word features, the self projection, the
  neighbour mean and the bias row, halved (second result).  The only difference left is the order in which the four
  terms of the second result are added, and addition of extended reals is associative.

  The frames of the two kernel programs are the generated ones; the reference's frame is its run with the results
  dropped; the idealization rewrote nothing, so there is nothing to preserve.
-/
import proofs.«120549_j69990787056126_2_alg».proof.Defs
import proofs.«120549_j69990787056126_2_alg».proof.Proof.Gen.Kernel
import proofs.«120549_j69990787056126_2_alg».proof.Proof.Gen.Kernel.Frame
import proofs.«120549_j69990787056126_2_alg».proof.Proof.Gen.KernelIdeal
import proofs.«120549_j69990787056126_2_alg».proof.Proof.Gen.KernelIdeal.Frame
import proofs.«120549_j69990787056126_2_alg».proof.Proof.Gen.ReferenceIdeal
import proofs.«120549_j69990787056126_2_alg».proof.Proof.Gen.Pre_finite_inputs
import proofs.«120549_j69990787056126_2_alg».proof.Proof.KernelValue
import proofs.«120549_j69990787056126_2_alg».proof.Proof.RefBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference terminates with its arguments unchanged: its run, the two results forgotten. -/
theorem frame_reference : Cert.frame_ReferenceIdeal := fun m ρ _ =>
  (θ_run Cert.ReferenceIdeal.defs _ _).mono (fun _ h c => (h c).2.2) (Cert.ReferenceIdeal.Hand.run_tail m ρ)

/-- From memories that agree on the fourteen arguments both programs end with the acoustic output and the word output
    of the same four projections of the same arguments. -/
theorem algebraic : Cert.algebraic_KernelIdeal_ReferenceIdeal := by
  intro m ρ m' ρ' _ hagree
  refine ⟨_, _, Cert.KernelIdeal.Hand.run_tail m ρ, ?_⟩
  refine (θ_run Cert.ReferenceIdeal.defs _ _).mono (fun r h c => ?_) (Cert.ReferenceIdeal.Hand.run_tail m' ρ')
  obtain ⟨h0, h1, hrest⟩ := h c
  obtain ⟨e0, e1, e2, e3, e4, e5, e6, e7, e8, e9, e10, e11, e12, e13⟩ := hagree c
  refine ⟨h0.trans ?_, h1.trans ?_, hrest⟩
  · rw [e0, e8, e9, e2, e3, e4, e10]
  · rw [e0, e1, e11, e12, e5, e6, e7, e13]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
